-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x65536x3 : Shape := ⟨4, ![1, 1, 65536, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S512x1088 : Shape := ⟨2, ![512, 1088]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S1x1x65536x3 : S_.BroadcastsInDim S1x1x65536x3 (![] : Fin 0 → Fin S1x1x65536x3.rank)
  reducesTo_S1x1x65536x3_S_d0_1_2_3 : S1x1x65536x3.ReducesTo [0, 1, 2, 3] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S512x1088 : S_.BroadcastsInDim S512x1088 (![] : Fin 0 → Fin S512x1088.rank)
  reducesTo_S512x1088_S_d0_1 : S512x1088.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128 .f32) (main_arg15 : FVec F S1x128 .f32) (main_arg16 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S1x128 .f32 := Host.absf main_arg15
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S256x512 .f32) (main_arg12 : FVec F S256 .f32) (main_arg13 : FVec F S128x256 .f32) (main_arg14 : FVec F S128 .f32) (main_arg15 : FVec F S1x128 .f32) (main_arg16 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_arg16 main_v63 main_v67

def fn_part2 {F : FTy → Type} [FloatOps F] (main_arg7 : FVec F S1024x128 .f32) (main_arg8 : FVec F S1024 .f32) (main_arg9 : FVec F S512x1088 .f32) (main_arg10 : FVec F S512 .f32) (main_arg11 : FVec F S256x512 .f32) (main_arg12 : FVec F S256 .f32) (main_arg13 : FVec F S128x256 .f32) (main_arg14 : FVec F S128 .f32) (main_arg15 : FVec F S1x128 .f32) (main_arg16 : FVec F S1 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512x1088 .f32 := Host.absf main_arg9
  let main_cst_16 : FVec F S_ .f32 := constant S_ .f32 0x7F800000#32
  let main_v45 : FVec F S512x1088 .f32 := broadcastInDim S512x1088 ![] bcast_S_S512x1088 main_cst_16
  let main_v46 : IVec S512x1088 1 := cmpf .olt main_v44 main_v45
  let main_c_17 : IVec S_ 1 := constantI S_ 1 1#1
  let main_v47 : IVec S_ 1 := (fun x v => Host.reduce IntOp.andi x v reducesTo_S512x1088_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S128x64 .f32) (main_arg6 : FVec F S128 .f32) (main_arg7 : FVec F S1024x128 .f32) (main_arg8 : FVec F S1024 .f32) (main_arg9 : FVec F S512x1088 .f32) (main_arg10 : FVec F S512 .f32) (main_arg11 : FVec F S256x512 .f32) (main_arg12 : FVec F S256 .f32) (main_arg13 : FVec F S128x256 .f32) (main_arg14 : FVec F S128 .f32) (main_arg15 : FVec F S1x128 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1x1x65536x3 .f32) (main_arg1 : FVec F S64x3 .f32) (main_arg2 : FVec F S64 .f32) (main_arg3 : FVec F S64x64 .f32) (main_arg4 : FVec F S64 .f32) (main_arg5 : FVec F S128x64 .f32) (main_arg6 : FVec F S128 .f32) (main_arg7 : FVec F S1024x128 .f32) (main_arg8 : FVec F S1024 .f32) (main_arg9 : FVec F S512x1088 .f32) (main_arg10 : FVec F S512 .f32) (main_arg11 : FVec F S256x512 .f32) (main_arg12 : FVec F S256 .f32) (main_arg13 : FVec F S128x256 .f32) (main_arg14 : FVec F S128 .f32) (main_arg15 : FVec F S1x128 .f32) (main_arg16 : FVec F S1 .f32) : IVec S_ 1 :=
  let main_v0 : FVec F S1x1x65536x3 .f32 := Host.absf main_arg0
  let main_cst : FVec F S_ .f32 := constant S_ .f32 0x7F800000#32
  let main_v1 : FVec F S1x1x65536x3 .f32 := broadcastInDim S1x1x65536x3 ![] bcast_S_S1x1x65536x3 main_cst
  let main_v2 : IVec S1x1x65536x3 1 := cmpf .olt main_v0 main_v1
  let main_c : IVec S_ 1 := constantI S_ 1 1#1
  let main_v3 : IVec S_ 1 := (fun x v => Host.reduce IntOp.andi x v reducesTo_S1x1x65536x3_S_d0_1_2_3 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1x1x65536x3 : Shape := ⟨4, ![1, 1, 65536, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S512x1088 : Shape := ⟨2, ![512, 1088]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S1 : Shape := ⟨1, ![1]⟩
abbrev S65536x3 : Shape := ⟨2, ![65536, 3]⟩
abbrev S1x64 : Shape := ⟨2, ![1, 64]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S65536x64 : Shape := ⟨2, ![65536, 64]⟩
abbrev S512x3 : Shape := ⟨2, ![512, 3]⟩
abbrev S512x64 : Shape := ⟨2, ![512, 64]⟩
abbrev S512x128 : Shape := ⟨2, ![512, 128]⟩
abbrev S512x1024 : Shape := ⟨2, ![512, 1024]⟩
abbrev S65536x1 : Shape := ⟨2, ![65536, 1]⟩
abbrev S512x1 : Shape := ⟨2, ![512, 1]⟩
abbrev S512x512 : Shape := ⟨2, ![512, 512]⟩
abbrev S512x256 : Shape := ⟨2, ![512, 256]⟩
abbrev S1x1x65536x1 : Shape := ⟨4, ![1, 1, 65536, 1]⟩

abbrev nBuf : Space → Nat
  | .hbm => 30
  | .vmem => 26
  | .smem => 0
  | _ => 0

abbrev bufTy : (tb : Table) → Fin (tcTables nBuf tb) → BufTy
  | .hbm, ⟨0, _⟩ => ⟨S1x1x65536x3, .f32⟩
  | .hbm, ⟨1, _⟩ => ⟨S64x3, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S512x1088, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S1x128, .f32⟩
  | .hbm, ⟨16, _⟩ => ⟨S1, .f32⟩
  | .hbm, ⟨17, _⟩ => ⟨S65536x3, .f32⟩
  | .hbm, ⟨18, _⟩ => ⟨S1x64, .f32⟩
  | .hbm, ⟨19, _⟩ => ⟨S1x64, .f32⟩
  | .hbm, ⟨20, _⟩ => ⟨S1x128, .f32⟩
  | .hbm, ⟨21, _⟩ => ⟨S1x1024, .f32⟩
  | .hbm, ⟨22, _⟩ => ⟨S1x512, .f32⟩
  | .hbm, ⟨23, _⟩ => ⟨S1x256, .f32⟩
  | .hbm, ⟨24, _⟩ => ⟨S1x128, .f32⟩
  | .hbm, ⟨25, _⟩ => ⟨S1x1, .f32⟩
  | .hbm, ⟨26, _⟩ => ⟨S65536x64, .bf16⟩
  | .hbm, ⟨27, _⟩ => ⟨S1x1024, .f32⟩
  | .hbm, ⟨28, _⟩ => ⟨S65536x1, .f32⟩
  | .hbm, ⟨29, _⟩ => ⟨S1x1x65536x1, .f32⟩
  | .local _ .vmem, ⟨0, _⟩ => ⟨S512x3, .f32⟩
  | .local _ .vmem, ⟨1, _⟩ => ⟨S512x3, .f32⟩
  | .local _ .vmem, ⟨2, _⟩ => ⟨S64x3, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S128x64, .f32⟩
  | .local _ .vmem, ⟨7, _⟩ => ⟨S1x128, .f32⟩
  | .local _ .vmem, ⟨8, _⟩ => ⟨S1024x128, .f32⟩
  | .local _ .vmem, ⟨9, _⟩ => ⟨S1x1024, .f32⟩
  | .local _ .vmem, ⟨10, _⟩ => ⟨S512x64, .bf16⟩
  | .local _ .vmem, ⟨11, _⟩ => ⟨S512x64, .bf16⟩
  | .local _ .vmem, ⟨12, _⟩ => ⟨S1x1024, .f32⟩
  | .local _ .vmem, ⟨13, _⟩ => ⟨S512x64, .bf16⟩
  | .local _ .vmem, ⟨14, _⟩ => ⟨S512x64, .bf16⟩
  | .local _ .vmem, ⟨15, _⟩ => ⟨S1x1024, .f32⟩
  | .local _ .vmem, ⟨16, _⟩ => ⟨S512x1088, .f32⟩
  | .local _ .vmem, ⟨17, _⟩ => ⟨S1x512, .f32⟩
  | .local _ .vmem, ⟨18, _⟩ => ⟨S256x512, .f32⟩
  | .local _ .vmem, ⟨19, _⟩ => ⟨S1x256, .f32⟩
  | .local _ .vmem, ⟨20, _⟩ => ⟨S128x256, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S512x1, .f32⟩
  | .local _ .vmem, ⟨25, _⟩ => ⟨S512x1, .f32⟩
  | _, _ => ⟨S1x1x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1088 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S1x1x65536x3_S65536x3 : S1x1x65536x3.ShapeCasts S65536x3
  shapeCasts_S64_S1x64 : S64.ShapeCasts S1x64
  shapeCasts_S128_S1x128 : S128.ShapeCasts S1x128
  shapeCasts_S1024_S1x1024 : S1024.ShapeCasts S1x1024
  shapeCasts_S512_S1x512 : S512.ShapeCasts S1x512
  shapeCasts_S256_S1x256 : S256.ShapeCasts S1x256
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S64x3_S64x3_0_0 : ∀ a, (![0, 0] : Fin 2 → Nat) a + S64x3.size a ≤ S64x3.size a
  h_S64x3 : 0 < S64x3.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1024x128_S1024x128_0_0 : ∀ a, (![0, 0] : Fin 2 → Nat) a + S1024x128.size a ≤ S1024x128.size a
  h_S1024x128 : 0 < S1024x128.numel
  shapeCasts_S1x1024_S1x1024 : S1x1024.ShapeCasts S1x1024
  broadcasts_S1x1024_S512x1024 : S1x1024.Broadcasts S512x1024
  reduces_S512x1024_S1024 : S512x1024.Reduces [0] S1024
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  shapeCasts_S512x64_S512x64 : S512x64.ShapeCasts S512x64
  concatenates_S512x64_S512x1024_S512x1088_d1 : Shape.Concatenates [S512x64, S512x1024] S512x1088 1
  inb_S512x1088_S512x1088_0_0 : ∀ a, (![0, 0] : Fin 2 → Nat) a + S512x1088.size a ≤ S512x1088.size a
  h_S512x1088 : 0 < S512x1088.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S128x256_S128x256_0_0 : ∀ a, (![0, 0] : Fin 2 → Nat) a + S128x256.size a ≤ S128x256.size a
  h_S128x256 : 0 < S128x256.numel
  reduces_S512x128_S512 : S512x128.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S65536x1_S1x1x65536x1 : S65536x1.ShapeCasts S1x1x65536x1
  dot_S512x3_S64x3_S512x64_1_1_0_0_n_n_wf : DotDims.WF S512x3 S64x3 S512x64 [1] [1] [0] [0] [] []
  dot_S512x64_S64x64_S512x64_1_1_0_0_n_n_wf : DotDims.WF S512x64 S64x64 S512x64 [1] [1] [0] [0] [] []
  dot_S512x64_S128x64_S512x128_1_1_0_0_n_n_wf : DotDims.WF S512x64 S128x64 S512x128 [1] [1] [0] [0] [] []
  dot_S512x128_S1024x128_S512x1024_1_1_0_0_n_n_wf : DotDims.WF S512x128 S1024x128 S512x1024 [1] [1] [0] [0] [] []
  dot_S512x1088_S512x1088_S512x512_1_1_0_0_n_n_wf : DotDims.WF S512x1088 S512x1088 S512x512 [1] [1] [0] [0] [] []
  dot_S512x512_S256x512_S512x256_1_1_0_0_n_n_wf : DotDims.WF S512x512 S256x512 S512x256 [1] [1] [0] [0] [] []
  dot_S512x256_S128x256_S512x128_1_1_0_0_n_n_wf : DotDims.WF S512x256 S128x256 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S65536x3.size a
  hwx0_0 : ∀ i : grid0.Coords, EltTy.bits .f32 = 32 ∨ (Rect.block (s := S65536x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S65536x64.size a
  hwx0_9 : ∀ i : grid0.Coords, EltTy.bits .bf16 = 32 ∨ (Rect.block (s := S65536x64) S512x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S65536x64.size a
  hwx1_0 : ∀ i : grid1.Coords, EltTy.bits .bf16 = 32 ∨ (Rect.block (s := S65536x64) S512x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1088.size a ≤ S512x1088.size a
  hwx1_2 : ∀ i : grid1.Coords, EltTy.bits .f32 = 32 ∨ (Rect.block (s := S512x1088) S512x1088.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S65536x1.size a
  hwx1_10 : ∀ i : grid1.Coords, EltTy.bits .f32 = 32 ∨ (Rect.block (s := S65536x1) S512x1.size (cc1_transform_10 i) (hinb1_10 i)).WholeWords (EltTy.packing .f32)

variable [Facts₀]

def dot_S512x3_S64x3_S512x64_1_1_0_0_n_n : DotDims S512x3 S64x3 S512x64 where
  lhsContracting := [1]
  rhsContracting := [1]
  lhsNonContracting := [0]
  rhsNonContracting := [0]
  lhsBatch := []
  rhsBatch := []
  wf := dot_S512x3_S64x3_S512x64_1_1_0_0_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf
def dot_S512x64_S128x64_S512x128_1_1_0_0_n_n : DotDims S512x64 S128x64 S512x128 where
  lhsContracting := [1]
  rhsContracting := [1]
  lhsNonContracting := [0]
  rhsNonContracting := [0]
  lhsBatch := []
  rhsBatch := []
  wf := dot_S512x64_S128x64_S512x128_1_1_0_0_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1088_S512x1088_S512x512_1_1_0_0_n_n : DotDims S512x1088 S512x1088 S512x512 where
  lhsContracting := [1]
  rhsContracting := [1]
  lhsNonContracting := [0]
  rhsNonContracting := [0]
  lhsBatch := []
  rhsBatch := []
  wf := dot_S512x1088_S512x1088_S512x512_1_1_0_0_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S128x256_S512x128_1_1_0_0_n_n : DotDims S512x256 S128x256 S512x128 where
  lhsContracting := [1]
  rhsContracting := [1]
  lhsNonContracting := [0]
  rhsNonContracting := [0]
  lhsBatch := []
  rhsBatch := []
  wf := dot_S512x256_S128x256_S512x128_1_1_0_0_n_n_wf

abbrev win0_0 : Pipeline.Window sig grid0 :=
  Pipeline.Window.ofSpec (Memref.whole main_v0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S512x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S1x1024.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v9_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S512x1088.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S512x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S1x1x65536x3 : Shape := ⟨4, ![1, 1, 65536, 3]⟩
abbrev S64x3 : Shape := ⟨2, ![64, 3]⟩
abbrev S64 : Shape := ⟨1, ![64]⟩
abbrev S64x64 : Shape := ⟨2, ![64, 64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S512x1088 : Shape := ⟨2, ![512, 1088]⟩
abbrev S512 : Shape := ⟨1, ![512]⟩
abbrev S256x512 : Shape := ⟨2, ![256, 512]⟩
abbrev S256 : Shape := ⟨1, ![256]⟩
abbrev S128x256 : Shape := ⟨2, ![128, 256]⟩
abbrev S1x128 : Shape := ⟨2, ![1, 128]⟩
abbrev S1 : Shape := ⟨1, ![1]⟩
abbrev S65536x3 : Shape := ⟨2, ![65536, 3]⟩
abbrev S3x64 : Shape := ⟨2, ![3, 64]⟩
abbrev S65536x64 : Shape := ⟨2, ![65536, 64]⟩
abbrev S1x64 : Shape := ⟨2, ![1, 64]⟩
abbrev S_ : Shape := ⟨0, ![]⟩
abbrev S64x128 : Shape := ⟨2, ![64, 128]⟩
abbrev S65536x128 : Shape := ⟨2, ![65536, 128]⟩
abbrev S128x1024 : Shape := ⟨2, ![128, 1024]⟩
abbrev S65536x1024 : Shape := ⟨2, ![65536, 1024]⟩
abbrev S1x1024 : Shape := ⟨2, ![1, 1024]⟩
abbrev S65536x1088 : Shape := ⟨2, ![65536, 1088]⟩
abbrev S1088x512 : Shape := ⟨2, ![1088, 512]⟩
abbrev S65536x512 : Shape := ⟨2, ![65536, 512]⟩
abbrev S1x512 : Shape := ⟨2, ![1, 512]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S128x1 : Shape := ⟨2, ![128, 1]⟩
abbrev S65536x1 : Shape := ⟨2, ![65536, 1]⟩
abbrev S1x1 : Shape := ⟨2, ![1, 1]⟩
abbrev S1x1x65536x1 : Shape := ⟨4, ![1, 1, 65536, 1]⟩

abbrev nBuf : Space → Nat
  | .hbm => 84
  | .vmem => 0
  | .smem => 0
  | _ => 0

abbrev bufTy : (tb : Table) → Fin (tcTables nBuf tb) → BufTy
  | .hbm, ⟨0, _⟩ => ⟨S1x1x65536x3, .f32⟩
  | .hbm, ⟨1, _⟩ => ⟨S64x3, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S512x1088, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S1x128, .f32⟩
  | .hbm, ⟨16, _⟩ => ⟨S1, .f32⟩
  | .hbm, ⟨17, _⟩ => ⟨S65536x3, .f32⟩
  | .hbm, ⟨18, _⟩ => ⟨S3x64, .f32⟩
  | .hbm, ⟨19, _⟩ => ⟨S65536x64, .f32⟩
  | .hbm, ⟨20, _⟩ => ⟨S1x64, .f32⟩
  | .hbm, ⟨21, _⟩ => ⟨S65536x64, .f32⟩
  | .hbm, ⟨22, _⟩ => ⟨S65536x64, .f32⟩
  | .hbm, ⟨23, _⟩ => ⟨S_, .f32⟩
  | .hbm, ⟨24, _⟩ => ⟨S65536x64, .f32⟩
  | .hbm, ⟨25, _⟩ => ⟨S65536x64, .f32⟩
  | .hbm, ⟨26, _⟩ => ⟨S64x64, .f32⟩
  | .hbm, ⟨27, _⟩ => ⟨S65536x64, .f32⟩
  | .hbm, ⟨28, _⟩ => ⟨S1x64, .f32⟩
  | .hbm, ⟨29, _⟩ => ⟨S65536x64, .f32⟩
  | .hbm, ⟨30, _⟩ => ⟨S65536x64, .f32⟩
  | .hbm, ⟨31, _⟩ => ⟨S_, .f32⟩
  | .hbm, ⟨32, _⟩ => ⟨S65536x64, .f32⟩
  | .hbm, ⟨33, _⟩ => ⟨S65536x64, .f32⟩
  | .hbm, ⟨34, _⟩ => ⟨S64x128, .f32⟩
  | .hbm, ⟨35, _⟩ => ⟨S65536x128, .f32⟩
  | .hbm, ⟨36, _⟩ => ⟨S1x128, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S128x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S1024, .f32⟩
  | .hbm, ⟨52, _⟩ => ⟨S65536x1024, .f32⟩
  | .hbm, ⟨53, _⟩ => ⟨S65536x1088, .f32⟩
  | .hbm, ⟨54, _⟩ => ⟨S1088x512, .f32⟩
  | .hbm, ⟨55, _⟩ => ⟨S65536x512, .f32⟩
  | .hbm, ⟨56, _⟩ => ⟨S1x512, .f32⟩
  | .hbm, ⟨57, _⟩ => ⟨S65536x512, .f32⟩
  | .hbm, ⟨58, _⟩ => ⟨S65536x512, .f32⟩
  | .hbm, ⟨59, _⟩ => ⟨S_, .f32⟩
  | .hbm, ⟨60, _⟩ => ⟨S65536x512, .f32⟩
  | .hbm, ⟨61, _⟩ => ⟨S65536x512, .f32⟩
  | .hbm, ⟨62, _⟩ => ⟨S512x256, .f32⟩
  | .hbm, ⟨63, _⟩ => ⟨S65536x256, .f32⟩
  | .hbm, ⟨64, _⟩ => ⟨S1x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S65536x256, .f32⟩
  | .hbm, ⟨69, _⟩ => ⟨S65536x256, .f32⟩
  | .hbm, ⟨70, _⟩ => ⟨S256x128, .f32⟩
  | .hbm, ⟨71, _⟩ => ⟨S65536x128, .f32⟩
  | .hbm, ⟨72, _⟩ => ⟨S1x128, .f32⟩
  | .hbm, ⟨73, _⟩ => ⟨S65536x128, .f32⟩
  | .hbm, ⟨74, _⟩ => ⟨S65536x128, .f32⟩
  | .hbm, ⟨75, _⟩ => ⟨S_, .f32⟩
  | .hbm, ⟨76, _⟩ => ⟨S65536x128, .f32⟩
  | .hbm, ⟨77, _⟩ => ⟨S65536x128, .f32⟩
  | .hbm, ⟨78, _⟩ => ⟨S128x1, .f32⟩
  | .hbm, ⟨79, _⟩ => ⟨S65536x1, .f32⟩
  | .hbm, ⟨80, _⟩ => ⟨S1x1, .f32⟩
  | .hbm, ⟨81, _⟩ => ⟨S65536x1, .f32⟩
  | .hbm, ⟨82, _⟩ => ⟨S65536x1, .f32⟩
  | .hbm, ⟨83, _⟩ => ⟨S1x1x65536x1, .f32⟩
  | _, _ => ⟨S1x1x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_cst : Ref sig .tc := ⟨.hbm, 31, rfl⟩
abbrev main_call1_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_cst : Ref sig .tc := ⟨.hbm, 47, rfl⟩
abbrev main_call3_v0 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call4_cst : Ref sig .tc := ⟨.hbm, 59, rfl⟩
abbrev main_call4_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call5_cst : Ref sig .tc := ⟨.hbm, 67, rfl⟩
abbrev main_call5_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call6_cst : Ref sig .tc := ⟨.hbm, 75, rfl⟩
abbrev main_call6_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩

abbrev nD : Nat := 1
abbrev τ : Topo := Topo.v7x

variable {F : FTy → Type} [FloatOps F]

class Facts₀ : Prop where
  shapeCasts_S1x1x65536x3_S65536x3 : S1x1x65536x3.ShapeCasts S65536x3
  transposes_S64x3_S3x64_1_0 : S64x3.Transposes [1, 0] S3x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S64x64_S64x64_1_0 : S64x64.Transposes [1, 0] S64x64
  transposes_S128x64_S64x128_1_0 : S128x64.Transposes [1, 0] S64x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S1024x128_S128x1024_1_0 : S1024x128.Transposes [1, 0] S128x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S1024_d0 : S65536x1024.ReducesTo [0] S1024
  h_S_ : 0 < S_.numel
  bcast_S1024_S65536x1024_1 : S1024.BroadcastsInDim S65536x1024 (![1] : Fin 1 → Fin S65536x1024.rank)
  concatenates_S65536x64_S65536x1024_S65536x1088_d1 : Shape.Concatenates [S65536x64, S65536x1024] S65536x1088 1
  transposes_S512x1088_S1088x512_1_0 : S512x1088.Transposes [1, 0] S1088x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S128x256_S256x128_1_0 : S128x256.Transposes [1, 0] S256x128
  transposes_S1x128_S128x1_1_0 : S1x128.Transposes [1, 0] S128x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S1x1x65536x1 : S65536x1.ShapeCasts S1x1x65536x1
  dot_S65536x3_S3x64_S65536x64_1_0_0_1_n_n_wf : DotDims.WF S65536x3 S3x64 S65536x64 [1] [0] [0] [1] [] []
  dot_S65536x64_S64x64_S65536x64_1_0_0_1_n_n_wf : DotDims.WF S65536x64 S64x64 S65536x64 [1] [0] [0] [1] [] []
  dot_S65536x64_S64x128_S65536x128_1_0_0_1_n_n_wf : DotDims.WF S65536x64 S64x128 S65536x128 [1] [0] [0] [1] [] []
  dot_S65536x128_S128x1024_S65536x1024_1_0_0_1_n_n_wf : DotDims.WF S65536x128 S128x1024 S65536x1024 [1] [0] [0] [1] [] []
  dot_S65536x1088_S1088x512_S65536x512_1_0_0_1_n_n_wf : DotDims.WF S65536x1088 S1088x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x1_S65536x1_1_0_0_1_n_n_wf : DotDims.WF S65536x128 S128x1 S65536x1 [1] [0] [0] [1] [] []

variable [Facts₀]

def dot_S65536x3_S3x64_S65536x64_1_0_0_1_n_n : DotDims S65536x3 S3x64 S65536x64 where
  lhsContracting := [1]
  rhsContracting := [0]
  lhsNonContracting := [0]
  rhsNonContracting := [1]
  lhsBatch := []
  rhsBatch := []
  wf := dot_S65536x3_S3x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf
def dot_S65536x1088_S1088x512_S65536x512_1_0_0_1_n_n : DotDims S65536x1088 S1088x512 S65536x512 where
  lhsContracting := [1]
  rhsContracting := [0]
  lhsNonContracting := [0]
  rhsNonContracting := [1]
  lhsBatch := []
  rhsBatch := []
  wf := dot_S65536x1088_S1088x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf

class Facts : Prop extends Facts₀ where

variable [Facts]
-- ==== Proof.KRun.lean ====
/-
  The idealized kernel's run with its result named. @main is four segments — the host reshapes, the first pallas_call,
  the second, the closing reshape — and at the end of the last one every buffer of the TensorCore holds the contents
  `Gen.W4`: the launch memory pushed through the first reshapes, then each pallas_call's arrays replaced by what its
  write-backs leave, then the closing reshape. The run below is the frame's run with ONE more buffer read off that
  final state: the result `main_v11`, beside the seventeen argument arrays, which end as launched.
-/
import proofs.«148967_j69947837383384_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W4` and every argument array as launched. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelIdeal.RunV

end
-- ==== Proof.Pieces0.lean ====
/-
  What one grid point of the first pallas_call leaves in its two output buffers, as values of what it loaded. The
  body computes layers 1 and 2 of its 512 points (the kept features, stored whole into the first output's buffer) and
  layers 3 and 4, whose maximum over the 512 points it merges into the second output's buffer: at the first point the
  buffer is first filled with -∞ and read back, at every later point it holds what the point before left.
-/
import proofs.«148967_j69947837383384_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A later point leaves the kept features of its 512 points in the first output's buffer. -/
theorem out_B_9 (c : Dev nD) (i : grid0.Coords) (arg1 : Memref sig .tc .vmem S512x3 .f32) (harg1 : arg1.IsWhole) (arg2 : Memref sig .tc .vmem S64x3 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1x1024 .f32) (harg9 : arg9.IsWhole) (arg10 : Memref sig .tc .vmem S512x64 .bf16) (harg10 : arg10.IsWhole) (arg11 : Memref sig .tc .vmem S1x1024 .f32) (harg11 : arg11.IsWhole) (hc0 : ¬cond0_0 i)
    (x0 : Vec F S512x3 .f32) (x1 : Vec F S64x3 .f32) (x2 : Vec F S1x64 .f32) (x3 : Vec F S64x64 .f32) (x4 : Vec F S1x64 .f32) (x5 : Vec F S128x64 .f32) (x6 : Vec F S1x128 .f32) (x7 : Vec F S1024x128 .f32) (x8 : Vec F S1x1024 .f32) (xo10 : Vec F S1x1024 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = k0_pay2 (k0_pay4 x0 x1 x2 x3 x4) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x3) hz, View.ld_unit_zero (S := S64x3) hz, View.ld_unit_zero (S := S1x64) hz, View.ld_unit_zero (S := S64x64) hz, View.ld_unit_zero (S := S128x64) hz, View.ld_unit_zero (S := S1x128) hz, View.ld_unit_zero (S := S1024x128) hz, View.ld_unit_zero (S := S1x1024) hz]

/-- So does the first point. -/
theorem out_A_9 (c : Dev nD) (i : grid0.Coords) (arg1 : Memref sig .tc .vmem S512x3 .f32) (harg1 : arg1.IsWhole) (arg2 : Memref sig .tc .vmem S64x3 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1x1024 .f32) (harg9 : arg9.IsWhole) (arg10 : Memref sig .tc .vmem S512x64 .bf16) (harg10 : arg10.IsWhole) (arg11 : Memref sig .tc .vmem S1x1024 .f32) (harg11 : arg11.IsWhole) (hc0 : cond0_0 i)
    (x0 : Vec F S512x3 .f32) (x1 : Vec F S64x3 .f32) (x2 : Vec F S1x64 .f32) (x3 : Vec F S64x64 .f32) (x4 : Vec F S1x64 .f32) (x5 : Vec F S128x64 .f32) (x6 : Vec F S1x128 .f32) (x7 : Vec F S1024x128 .f32) (x8 : Vec F S1x1024 .f32) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = k0_pay2 (k0_pay4 x0 x1 x2 x3 x4) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x3) hz, View.ld_unit_zero (S := S64x3) hz, View.ld_unit_zero (S := S1x64) hz, View.ld_unit_zero (S := S64x64) hz, View.ld_unit_zero (S := S128x64) hz, View.ld_unit_zero (S := S1x128) hz, View.ld_unit_zero (S := S1024x128) hz, View.ld_unit_zero (S := S1x1024) hz]

/-- A later point merges the maximum of its 512 points' pooled features into what the buffer held. -/
theorem out_B_10 (c : Dev nD) (i : grid0.Coords) (arg1 : Memref sig .tc .vmem S512x3 .f32) (harg1 : arg1.IsWhole) (arg2 : Memref sig .tc .vmem S64x3 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1x1024 .f32) (harg9 : arg9.IsWhole) (arg10 : Memref sig .tc .vmem S512x64 .bf16) (harg10 : arg10.IsWhole) (arg11 : Memref sig .tc .vmem S1x1024 .f32) (harg11 : arg11.IsWhole) (hc0 : ¬cond0_0 i)
    (x0 : Vec F S512x3 .f32) (x1 : Vec F S64x3 .f32) (x2 : Vec F S1x64 .f32) (x3 : Vec F S64x64 .f32) (x4 : Vec F S1x64 .f32) (x5 : Vec F S128x64 .f32) (x6 : Vec F S1x128 .f32) (x7 : Vec F S1024x128 .f32) (x8 : Vec F S1x1024 .f32) (xo10 : Vec F S1x1024 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = k0_pay1 (k0_pay5 x0 x1 x2 x3 x4 x5 x6) x7 x8 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x3) hz, View.ld_unit_zero (S := S64x3) hz, View.ld_unit_zero (S := S1x64) hz, View.ld_unit_zero (S := S64x64) hz, View.ld_unit_zero (S := S128x64) hz, View.ld_unit_zero (S := S1x128) hz, View.ld_unit_zero (S := S1024x128) hz, View.ld_unit_zero (S := S1x1024) hz]

/-- The first point merges it into the -∞ it has just stored. -/
theorem out_A_10 (c : Dev nD) (i : grid0.Coords) (arg1 : Memref sig .tc .vmem S512x3 .f32) (harg1 : arg1.IsWhole) (arg2 : Memref sig .tc .vmem S64x3 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1x1024 .f32) (harg9 : arg9.IsWhole) (arg10 : Memref sig .tc .vmem S512x64 .bf16) (harg10 : arg10.IsWhole) (arg11 : Memref sig .tc .vmem S1x1024 .f32) (harg11 : arg11.IsWhole) (hc0 : cond0_0 i)
    (x0 : Vec F S512x3 .f32) (x1 : Vec F S64x3 .f32) (x2 : Vec F S1x64 .f32) (x3 : Vec F S64x64 .f32) (x4 : Vec F S1x64 .f32) (x5 : Vec F S128x64 .f32) (x6 : Vec F S1x128 .f32) (x7 : Vec F S1024x128 .f32) (x8 : Vec F S1x1024 .f32) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 = k0_pay1 (k0_pay5 x0 x1 x2 x3 x4 x5 x6) x7 x8 k0_pay3 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x3) hz, View.ld_unit_zero (S := S64x3) hz, View.ld_unit_zero (S := S1x64) hz, View.ld_unit_zero (S := S64x64) hz, View.ld_unit_zero (S := S128x64) hz, View.ld_unit_zero (S := S1x128) hz, View.ld_unit_zero (S := S1024x128) hz, View.ld_unit_zero (S := S1x1024) hz]

end Cert.KernelIdeal.Pieces

end
-- ==== Proof.Region0.lean ====
/-
  The first pallas_call, point by point. Its first output's buffer holds, after point `t`, the kept features of the
  512 points of block `t`, whatever came before; its second output's buffer holds a running value: after point 0 the
  block's pooled maximum merged into -∞, after point `n + 1` the block's pooled maximum merged into what point `n` left.
-/
import proofs.«148967_j69947837383384_2_alg».proof.Proof.Pieces0

set_option maxRecDepth 16384

noncomputable section

namespace Cert.KernelIdeal.Reg0

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b)) (c : Dev nD)

/-- The kept features (layers 1 and 2) of the 512 points of block `t`. -/
def hBlk (t : Fin cfg0.N) : Vec F S512x64 .bf16 :=
  k0_pay2 (k0_pay4 (iblk0 V c 0 t) (iblk0 V c 1 t) (iblk0 V c 2 t) (iblk0 V c 3 t) (iblk0 V c 4 t))

/-- Layer 3 of the 512 points of block `t`. -/
def yBlk (t : Fin cfg0.N) : FVec F S512x128 .f32 :=
  k0_pay5 (iblk0 V c 0 t) (iblk0 V c 1 t) (iblk0 V c 2 t) (iblk0 V c 3 t) (iblk0 V c 4 t) (iblk0 V c 5 t) (iblk0 V c 6 t)

/-- After every point the first output's buffer holds that point's kept features. -/
theorem outs1 (t : Fin cfg0.N) : (outsAt0 V c t.val t.isLt).1 = hBlk V c t := by
  by_cases h0 : t.val % 128 = 0
  · rw [outsAt0_A V c t h0, Pieces.out_A_9]; rfl
  · rw [outsAt0_B V c t h0, Pieces.out_B_9]; rfl

/-- The second output's buffer after point `n`: the merge of block `n`'s pooled maximum into what came before. -/
def gChain : (n : ℕ) → n < cfg0.N → Vec F S1x1024 .f32
  | 0, h => k0_pay1 (yBlk V c ⟨0, h⟩) (iblk0 V c 7 ⟨0, h⟩) (iblk0 V c 8 ⟨0, h⟩) k0_pay3
  | n + 1, h => k0_pay1 (yBlk V c ⟨n + 1, h⟩) (iblk0 V c 7 ⟨n + 1, h⟩) (iblk0 V c 8 ⟨n + 1, h⟩) (gChain n (Nat.lt_of_succ_lt h))

theorem outs2 : ∀ (n : ℕ) (h : n < cfg0.N), (outsAt0 V c n h).2 = gChain V c n h
  | 0, h => by
    rw [outsAt0_A V c ⟨0, h⟩ rfl, Pieces.out_A_10, gChain]; rfl
  | n + 1, h => by
    have hN : cfg0.N = 128 := N_0
    have hB : ¬(⟨n + 1, h⟩ : Fin cfg0.N).val % 128 = 0 := by dsimp only; omega
    rw [outsAt0_B V c ⟨n + 1, h⟩ hB, Pieces.out_B_10, gChain]
    show k0_pay1 _ _ _ (outsAt0 V c n _).2 = k0_pay1 _ _ _ (gChain V c n _)
    rw [outs2 n]
    rfl

end Cert.KernelIdeal.Reg0

end
-- ==== Proof.Region0Arr.lean ====
/-
  The first pallas_call's two result arrays after its 128 points. The kept features [65536, 64] are written back block
  by block — point `t` writes rows 512·t … 512·t + 511 — so the array ends holding, at row `r`, row `r % 512` of block
  `r / 512`'s kept features. The pooled feature [1, 1024] is one block that never moves: it is written back once, after
  the last point, and holds what the running merge has reached there.
-/
import proofs.«148967_j69947837383384_2_alg».proof.Proof.Region0
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b)) (c : Dev nD)

/-- The block a row of the [65536, ·] arrays lies in. -/
def tOf (r : Fin 65536) : Fin cfg0.N := ⟨r.val / 512, by rw [show cfg0.N = 128 from N_0]; have := r.isLt; omega⟩

/-- The kept-features array the write-backs build: row `r` is row `r % 512` of block `r / 512`. -/
def hArr : S65536x64.Idx → Elt F .bf16 := fun i =>
  hBlk V c (tOf ⟨(i 0).val, (i 0).isLt⟩)
    (ix2 (⟨(i 0).val % 512, Nat.mod_lt _ (by decide)⟩ : Fin 512) (⟨(i 1).val, (i 1).isLt⟩ : Fin 64))

/-- Output window 9's block index at point `t` is `(t, 0)`: decided over the grid. -/
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- What point `t` writes back to the kept-features array is block `t` of `hArr`. -/
theorem flushed9 (t : Fin cfg0.N) :
    (dat0 V c).flushed 9 t = ((cfg0.win 9).blk t).view.read (Elt F) (hArr V c) := by
  show (cfg0.win 9).cut (grid0.coords t) ((dat0 V c).after 9 t) = _
  rw [after0_9, outs1]
  obtain ⟨e0, e1⟩ := idx9 t
  funext j
  show hBlk V c t j = hArr V c (((cfg0.win 9).blk t).view.emb j)
  have hj0 : (j 0).val < 512 := (j 0).isLt
  have hj1 : (j 1).val < 64 := (j 1).isLt
  have hN : cfg0.N = 128 := N_0
  have ht := t.isLt
  have q0 : ((((cfg0.win 9).blk t).view.emb j) 0).val = t.val * 512 + (j 0).val := by
    show win0_9.index t (0 : Fin 2) * 512 + 1 * (j 0).val = _
    rw [e0]; omega
  have q1 : ((((cfg0.win 9).blk t).view.emb j) 1).val = (j 1).val := by
    show win0_9.index t (1 : Fin 2) * 64 + 1 * (j 1).val = _
    rw [e1]; omega
  unfold hArr
  have a0 : tOf ⟨((((cfg0.win 9).blk t).view.emb j) 0).val, ((((cfg0.win 9).blk t).view.emb j) 0).isLt⟩ = t :=
    Fin.ext (by show ((((cfg0.win 9).blk t).view.emb j) 0).val / 512 = t.val; rw [q0]; omega)
  have a1 : (ix2 (⟨((((cfg0.win 9).blk t).view.emb j) 0).val % 512, Nat.mod_lt _ (by decide)⟩ : Fin 512)
      (⟨((((cfg0.win 9).blk t).view.emb j) 1).val, ((((cfg0.win 9).blk t).view.emb j) 1).isLt⟩ : Fin 64) : S512x64.Idx) = j :=
    funext fun a => Fin.ext (by
      match a with
      | ⟨0, _⟩ => show ((((cfg0.win 9).blk t).view.emb j) 0).val % 512 = (j 0).val; rw [q0]; omega
      | ⟨1, _⟩ => exact q1)
  rw [a0, a1]

/-- An index of the array is in point `t`'s block iff each coordinate is in the block's range on its axis. -/
theorem mem_blk9 (t : Fin cfg0.N) (i : S65536x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v9_0).slice (win0_9.rect t)).set ↔ _
  rw [View.set_slice_whole, Rect.mem_set_unit]
  exact Iff.rfl

/-- The kept-features array after the 128 points. -/
theorem final9 : (dat0 V c).arrAt 9 cfg0.N = hArr V c :=
  (dat0 V c).arrAt_eq_of_cover 9 (hArr V c) (fun t _ => flushed9 V c t) fun i => by
    have hi0 : (i 0).val < 65536 := (i 0).isLt
    have hi1 : (i 1).val < 64 := (i 1).isLt
    refine ⟨tOf ⟨(i 0).val, (i 0).isLt⟩, flush0_9 _, ?_⟩
    rw [mem_blk9]
    obtain ⟨e0, e1⟩ := idx9 (tOf ⟨(i 0).val, (i 0).isLt⟩)
    have e0' : win0_9.index (tOf ⟨(i 0).val, (i 0).isLt⟩) (0 : Fin 2) = (i 0).val / 512 := e0
    intro a
    match a with
    | ⟨0, _⟩ =>
      show win0_9.index (tOf ⟨(i 0).val, (i 0).isLt⟩) (0 : Fin 2) * 512 ≤ (i 0).val ∧ (i 0).val < win0_9.index (tOf ⟨(i 0).val, (i 0).isLt⟩) (0 : Fin 2) * 512 + 512
      rw [e0']; omega
    | ⟨1, _⟩ =>
      show win0_9.index (tOf ⟨(i 0).val, (i 0).isLt⟩) (1 : Fin 2) * 64 ≤ (i 1).val ∧ (i 1).val < win0_9.index (tOf ⟨(i 0).val, (i 0).isLt⟩) (1 : Fin 2) * 64 + 64
      rw [e1]; omega

/-- The last point. -/
abbrev tLast : Fin cfg0.N := ⟨127, by rw [show cfg0.N = 128 from N_0]; decide⟩

/-- The pooled-feature array the one write-back leaves: the running merge after the last point. -/
abbrev gArr : Vec F S1x1024 .f32 := gChain V c 127 (tLast).isLt

/-- The one write-back, at the last point: block (0, 0) of the [1, 1024] array read through zero offsets is the array. -/
theorem flushed10 (t : Fin cfg0.N) (hf : (cfg0.win 10).flush t = true) :
    (dat0 V c).flushed 10 t = ((cfg0.win 10).blk t).view.read (Elt F) (gArr V c) := by
  have hN : cfg0.N = 128 := N_0
  have h3 : t.val = 127 := by have := (flush0_10 t).mp hf; have := t.isLt; omega
  obtain rfl : t = tLast := Fin.ext h3
  show (cfg0.win 10).cut (grid0.coords tLast) ((dat0 V c).after 10 tLast) = _
  rw [after0_10, outs2]
  have hz' : (fun a => win0_10.index tLast a * main_v9_1.ty.shape.size a) = fun _ => 0 := funext fun a => by fin_cases a <;> decide +kernel
  exact (Memref.read_access_unit_zero (Elt F) main_v9_1 hz' (fun a => by rw [congrFun hz' a]; simp) (gArr V c)).symm

/-- So the pooled-feature array ends holding the running merge after the last point. -/
theorem final10 : (dat0 V c).arrAt 10 cfg0.N = gArr V c :=
  (dat0 V c).arrAt_eq_of_cover 10 (gArr V c) (flushed10 V c) fun i =>
    ⟨tLast, (flush0_10 tLast).mpr rfl, by
      show i ∈ ((View.whole main_v9_1).slice (win0_10.rect tLast)).set
      rw [View.set_slice_whole, Rect.mem_set_unit]
      intro a
      have h0 : (i 0 : Nat) < 1 := (i 0).isLt
      have h1 : (i 1 : Nat) < 1024 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 1 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 1024 from by decide +kernel]; omega⟩

end Cert.KernelIdeal.Reg0

end
-- ==== Proof.Region1.lean ====
/-
  The second pallas_call. At point `t` the body reads block `t` of the kept features (rows 512·t … 512·t + 511), the whole
  pooled feature and the four last layers' weights and biases, and stores one value per point into its [512, 1] output
  buffer, which is written back as rows 512·t … of the [65536, 1] result: so that array ends holding, at row `r`, entry
  `r % 512` of what point `r / 512` stored.
-/
import proofs.«148967_j69947837383384_2_alg».proof.Proof.Gen.KernelIdeal.Frame
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-- The body's one store holds the last four layers of what it loaded. -/
theorem out1_eq (x0 : Vec F S512x64 .bf16) (x1 : Vec F S1x1024 .f32) (x2 : Vec F S512x1088 .f32) (x3 : Vec F S1x512 .f32) (x4 : Vec F S256x512 .f32) (x5 : Vec F S1x256 .f32) (x6 : Vec F S128x256 .f32) (x7 : Vec F S1x128 .f32) (x8 : Vec F S1x128 .f32) (x9 : Vec F S1x1 .f32) :
    out1_10 x0 x1 x2 x3 x4 x5 x6 x7 x8 x9 = k1_pay1 (k1_pay2 x0 x1 x2 x3 x4 x5 x6 x7) x8 x9 := by
  unfold out1_10
  rw [View.canon_unit_zero hz]
  simp only [View.ld_unit_zero (S := S512x64) hz, View.ld_unit_zero (S := S1x1024) hz, View.ld_unit_zero (S := S512x1088) hz, View.ld_unit_zero (S := S1x512) hz, View.ld_unit_zero (S := S256x512) hz, View.ld_unit_zero (S := S1x256) hz, View.ld_unit_zero (S := S128x256) hz, View.ld_unit_zero (S := S1x128) hz, View.ld_unit_zero (S := S1x1) hz, View.ld_unit_zero (S := S512x1) hz]

variable (V : (c : Dev nD) → (b : Ref sig .tc) → Buf (Elt F) ((c : Thread nD τ).loc b)) (c : Dev nD)

/-- What point `t` stores: one value for each of its 512 points. -/
def zBlk (t : Fin cfg1.N) : Vec F S512x1 .f32 :=
  k1_pay1 (k1_pay2 (iblk1 V c 0 t) (iblk1 V c 1 t) (iblk1 V c 2 t) (iblk1 V c 3 t) (iblk1 V c 4 t) (iblk1 V c 5 t) (iblk1 V c 6 t) (iblk1 V c 7 t))
    (iblk1 V c 8 t) (iblk1 V c 9 t)

/-- The block a row of the [65536, 1] result lies in. -/
def tOf (r : Fin 65536) : Fin cfg1.N := ⟨r.val / 512, by rw [show cfg1.N = 128 from N_1]; have := r.isLt; omega⟩

/-- The result array the write-backs build: row `r` is entry `r % 512` of what point `r / 512` stored. -/
def zArr : S65536x1.Idx → Elt F .f32 := fun i =>
  zBlk V c (tOf ⟨(i 0).val, (i 0).isLt⟩)
    (ix2 (⟨(i 0).val % 512, Nat.mod_lt _ (by decide)⟩ : Fin 512) (⟨(i 1).val, (i 1).isLt⟩ : Fin 1))

/-- Output window 10's block index at point `t` is `(t, 0)`: decided over the grid. -/
theorem idx10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-- What point `t` writes back is block `t` of `zArr`. -/
theorem flushed10 (t : Fin cfg1.N) :
    (dat1 V c).flushed 10 t = ((cfg1.win 10).blk t).view.read (Elt F) (zArr V c) := by
  show (cfg1.win 10).cut (grid1.coords t) ((dat1 V c).after 10 t) = _
  rw [after1_10, out1_eq]
  obtain ⟨e0, e1⟩ := idx10 t
  funext j
  show zBlk V c t j = zArr V c (((cfg1.win 10).blk t).view.emb j)
  have hj0 : (j 0).val < 512 := (j 0).isLt
  have hj1 : (j 1).val < 1 := (j 1).isLt
  have hN : cfg1.N = 128 := N_1
  have ht := t.isLt
  have q0 : ((((cfg1.win 10).blk t).view.emb j) 0).val = t.val * 512 + (j 0).val := by
    show win1_10.index t (0 : Fin 2) * 512 + 1 * (j 0).val = _
    rw [e0]; omega
  have q1 : ((((cfg1.win 10).blk t).view.emb j) 1).val = (j 1).val := by
    show win1_10.index t (1 : Fin 2) * 1 + 1 * (j 1).val = _
    rw [e1]; omega
  unfold zArr
  have a0 : tOf ⟨((((cfg1.win 10).blk t).view.emb j) 0).val, ((((cfg1.win 10).blk t).view.emb j) 0).isLt⟩ = t :=
    Fin.ext (by show ((((cfg1.win 10).blk t).view.emb j) 0).val / 512 = t.val; rw [q0]; omega)
  have a1 : (ix2 (⟨((((cfg1.win 10).blk t).view.emb j) 0).val % 512, Nat.mod_lt _ (by decide)⟩ : Fin 512)
      (⟨((((cfg1.win 10).blk t).view.emb j) 1).val, ((((cfg1.win 10).blk t).view.emb j) 1).isLt⟩ : Fin 1) : S512x1.Idx) = j :=
    funext fun a => Fin.ext (by
      match a with
      | ⟨0, _⟩ => show ((((cfg1.win 10).blk t).view.emb j) 0).val % 512 = (j 0).val; rw [q0]; omega
      | ⟨1, _⟩ => exact q1)
  rw [a0, a1]

/-- An index of the array is in point `t`'s block iff each coordinate is in the block's range on its axis. -/
theorem mem_blk10 (t : Fin cfg1.N) (i : S65536x1.Idx) :
    i ∈ ((cfg1.win 10).blk t).view.set ↔ ∀ a : Fin 2, win1_10.index t a * S512x1.size a ≤ (i a).val ∧ (i a).val < win1_10.index t a * S512x1.size a + S512x1.size a := by
  show i ∈ ((View.whole main_v10).slice (win1_10.rect t)).set ↔ _
  rw [View.set_slice_whole, Rect.mem_set_unit]
  exact Iff.rfl

/-- The result array after the 128 points. -/
theorem final10 : (dat1 V c).arrAt 10 cfg1.N = zArr V c :=
  (dat1 V c).arrAt_eq_of_cover 10 (zArr V c) (fun t _ => flushed10 V c t) fun i => by
    have hi0 : (i 0).val < 65536 := (i 0).isLt
    have hi1 : (i 1).val < 1 := (i 1).isLt
    refine ⟨tOf ⟨(i 0).val, (i 0).isLt⟩, flush1_10 _, ?_⟩
    rw [mem_blk10]
    obtain ⟨e0, e1⟩ := idx10 (tOf ⟨(i 0).val, (i 0).isLt⟩)
    have e0' : win1_10.index (tOf ⟨(i 0).val, (i 0).isLt⟩) (0 : Fin 2) = (i 0).val / 512 := e0
    intro a
    match a with
    | ⟨0, _⟩ =>
      show win1_10.index (tOf ⟨(i 0).val, (i 0).isLt⟩) (0 : Fin 2) * 512 ≤ (i 0).val ∧ (i 0).val < win1_10.index (tOf ⟨(i 0).val, (i 0).isLt⟩) (0 : Fin 2) * 512 + 512
      rw [e0']; omega
    | ⟨1, _⟩ =>
      show win1_10.index (tOf ⟨(i 0).val, (i 0).isLt⟩) (1 : Fin 2) * 1 ≤ (i 1).val ∧ (i 1).val < win1_10.index (tOf ⟨(i 0).val, (i 0).isLt⟩) (1 : Fin 2) * 1 + 1
      rw [e1]; omega

end Cert.KernelIdeal.Reg1

end
-- ==== Proof.Blocks.lean ====
/-
  The blocks the two pallas_calls read, as entries of the arrays they are cut from. In each call one operand moves
  with the grid — block `t` is rows 512·t … 512·t + 511 of the point-indexed array — and every other operand (a weight
  matrix, a bias row, the pooled feature) is one block, the whole array, at every point.
-/
import proofs.«148967_j69947837383384_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b)) (c : Dev nD)

/-! ## The first pallas_call -/

/-- Window 0 of pallas_call 0 moves down the rows: its block index at point `t` is `(t, 0)`. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Its block at point `t` is rows 512·t … 512·t + 511 of the array. -/
theorem blk0_0 (t : Fin cfg0.N) (p : Fin 512) (q : Fin 3) :
    iblk0 V c 0 t (ix2 p q)
      = V c main_v0 (ix2 (⟨512 * t.val + p.val, by have ht : t.val < cfg0.N := t.isLt; have hN : cfg0.N = 128 := N_0; have hp : p.val < 512 := p.isLt; omega⟩ : Fin 65536) q) := by
  obtain ⟨e0, e1⟩ := idx0_0 t
  unfold iblk0
  rw [View.read_apply]
  show V c main_v0 _ = V c main_v0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 3 + 1 * q.val = q.val; rw [e1]; omega

/-- Window 1 of pallas_call 0 never moves: its block index is `(0, 0)` at every point. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Its block is the whole array. -/
theorem blk0_1 (t : Fin cfg0.N) (p : Fin 64) (q : Fin 3) :
    iblk0 V c 1 t (ix2 p q) = V c main_arg1 (ix2 p q) := by
  obtain ⟨e0, e1⟩ := idx0_1 t
  unfold iblk0
  rw [View.read_apply]
  show V c main_arg1 _ = V c main_arg1 _
  congr 1
  funext a
  apply Fin.ext
  match a with
  | ⟨0, _⟩ => show win0_1.index t (0 : Fin 2) * 64 + 1 * p.val = p.val; rw [e0]; omega
  | ⟨1, _⟩ => show win0_1.index t (1 : Fin 2) * 3 + 1 * q.val = q.val; rw [e1]; omega

/-- Window 2 of pallas_call 0 never moves: its block index is `(0, 0)` at every point. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Its block is the whole array. -/
theorem blk0_2 (t : Fin cfg0.N) (p : Fin 1) (q : Fin 64) :
    iblk0 V c 2 t (ix2 p q) = V c main_v1 (ix2 p q) := by
  obtain ⟨e0, e1⟩ := idx0_2 t
  unfold iblk0
  rw [View.read_apply]
  show V c main_v1 _ = V c main_v1 _
  congr 1
  funext a
  apply Fin.ext
  match a with
  | ⟨0, _⟩ => show win0_2.index t (0 : Fin 2) * 1 + 1 * p.val = p.val; rw [e0]; omega
  | ⟨1, _⟩ => show win0_2.index t (1 : Fin 2) * 64 + 1 * q.val = q.val; rw [e1]; omega

/-- Window 3 of pallas_call 0 never moves: its block index is `(0, 0)` at every point. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Its block is the whole array. -/
theorem blk0_3 (t : Fin cfg0.N) (p : Fin 64) (q : Fin 64) :
    iblk0 V c 3 t (ix2 p q) = V c main_arg3 (ix2 p q) := by
  obtain ⟨e0, e1⟩ := idx0_3 t
  unfold iblk0
  rw [View.read_apply]
  show V c main_arg3 _ = V c main_arg3 _
  congr 1
  funext a
  apply Fin.ext
  match a with
  | ⟨0, _⟩ => show win0_3.index t (0 : Fin 2) * 64 + 1 * p.val = p.val; rw [e0]; omega
  | ⟨1, _⟩ => show win0_3.index t (1 : Fin 2) * 64 + 1 * q.val = q.val; rw [e1]; omega

/-- Window 4 of pallas_call 0 never moves: its block index is `(0, 0)` at every point. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Its block is the whole array. -/
theorem blk0_4 (t : Fin cfg0.N) (p : Fin 1) (q : Fin 64) :
    iblk0 V c 4 t (ix2 p q) = V c main_v2 (ix2 p q) := by
  obtain ⟨e0, e1⟩ := idx0_4 t
  unfold iblk0
  rw [View.read_apply]
  show V c main_v2 _ = V c main_v2 _
  congr 1
  funext a
  apply Fin.ext
  match a with
  | ⟨0, _⟩ => show win0_4.index t (0 : Fin 2) * 1 + 1 * p.val = p.val; rw [e0]; omega
  | ⟨1, _⟩ => show win0_4.index t (1 : Fin 2) * 64 + 1 * q.val = q.val; rw [e1]; omega

/-- Window 5 of pallas_call 0 never moves: its block index is `(0, 0)` at every point. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Its block is the whole array. -/
theorem blk0_5 (t : Fin cfg0.N) (p : Fin 128) (q : Fin 64) :
    iblk0 V c 5 t (ix2 p q) = V c main_arg5 (ix2 p q) := by
  obtain ⟨e0, e1⟩ := idx0_5 t
  unfold iblk0
  rw [View.read_apply]
  show V c main_arg5 _ = V c main_arg5 _
  congr 1
  funext a
  apply Fin.ext
  match a with
  | ⟨0, _⟩ => show win0_5.index t (0 : Fin 2) * 128 + 1 * p.val = p.val; rw [e0]; omega
  | ⟨1, _⟩ => show win0_5.index t (1 : Fin 2) * 64 + 1 * q.val = q.val; rw [e1]; omega

/-- Window 6 of pallas_call 0 never moves: its block index is `(0, 0)` at every point. -/
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Its block is the whole array. -/
theorem blk0_6 (t : Fin cfg0.N) (p : Fin 1) (q : Fin 128) :
    iblk0 V c 6 t (ix2 p q) = V c main_v3 (ix2 p q) := by
  obtain ⟨e0, e1⟩ := idx0_6 t
  unfold iblk0
  rw [View.read_apply]
  show V c main_v3 _ = V c main_v3 _
  congr 1
  funext a
  apply Fin.ext
  match a with
  | ⟨0, _⟩ => show win0_6.index t (0 : Fin 2) * 1 + 1 * p.val = p.val; rw [e0]; omega
  | ⟨1, _⟩ => show win0_6.index t (1 : Fin 2) * 128 + 1 * q.val = q.val; rw [e1]; omega

/-- Window 7 of pallas_call 0 never moves: its block index is `(0, 0)` at every point. -/
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Its block is the whole array. -/
theorem blk0_7 (t : Fin cfg0.N) (p : Fin 1024) (q : Fin 128) :
    iblk0 V c 7 t (ix2 p q) = V c main_arg7 (ix2 p q) := by
  obtain ⟨e0, e1⟩ := idx0_7 t
  unfold iblk0
  rw [View.read_apply]
  show V c main_arg7 _ = V c main_arg7 _
  congr 1
  funext a
  apply Fin.ext
  match a with
  | ⟨0, _⟩ => show win0_7.index t (0 : Fin 2) * 1024 + 1 * p.val = p.val; rw [e0]; omega
  | ⟨1, _⟩ => show win0_7.index t (1 : Fin 2) * 128 + 1 * q.val = q.val; rw [e1]; omega

/-- Window 8 of pallas_call 0 never moves: its block index is `(0, 0)` at every point. -/
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Its block is the whole array. -/
theorem blk0_8 (t : Fin cfg0.N) (p : Fin 1) (q : Fin 1024) :
    iblk0 V c 8 t (ix2 p q) = V c main_v4 (ix2 p q) := by
  obtain ⟨e0, e1⟩ := idx0_8 t
  unfold iblk0
  rw [View.read_apply]
  show V c main_v4 _ = V c main_v4 _
  congr 1
  funext a
  apply Fin.ext
  match a with
  | ⟨0, _⟩ => show win0_8.index t (0 : Fin 2) * 1 + 1 * p.val = p.val; rw [e0]; omega
  | ⟨1, _⟩ => show win0_8.index t (1 : Fin 2) * 1024 + 1 * q.val = q.val; rw [e1]; omega

/-! ## The second pallas_call -/

/-- Window 0 of pallas_call 1 moves down the rows: its block index at point `t` is `(t, 0)`. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Its block at point `t` is rows 512·t … 512·t + 511 of the array. -/
theorem blk1_0 (t : Fin cfg1.N) (p : Fin 512) (q : Fin 64) :
    iblk1 V c 0 t (ix2 p q)
      = V c main_v9_0 (ix2 (⟨512 * t.val + p.val, by have ht : t.val < cfg1.N := t.isLt; have hN : cfg1.N = 128 := N_1; have hp : p.val < 512 := p.isLt; omega⟩ : Fin 65536) q) := by
  obtain ⟨e0, e1⟩ := idx1_0 t
  unfold iblk1
  rw [View.read_apply]
  show V c main_v9_0 _ = V c main_v9_0 _
  congr 1
  funext a
  apply Fin.ext
  match a with
  | ⟨0, _⟩ => show win1_0.index t (0 : Fin 2) * 512 + 1 * p.val = 512 * t.val + p.val; rw [e0]; omega
  | ⟨1, _⟩ => show win1_0.index t (1 : Fin 2) * 64 + 1 * q.val = q.val; rw [e1]; omega

/-- Window 1 of pallas_call 1 never moves: its block index is `(0, 0)` at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Its block is the whole array. -/
theorem blk1_1 (t : Fin cfg1.N) (p : Fin 1) (q : Fin 1024) :
    iblk1 V c 1 t (ix2 p q) = V c main_v9_1 (ix2 p q) := by
  obtain ⟨e0, e1⟩ := idx1_1 t
  unfold iblk1
  rw [View.read_apply]
  show V c main_v9_1 _ = V c main_v9_1 _
  congr 1
  funext a
  apply Fin.ext
  match a with
  | ⟨0, _⟩ => show win1_1.index t (0 : Fin 2) * 1 + 1 * p.val = p.val; rw [e0]; omega
  | ⟨1, _⟩ => show win1_1.index t (1 : Fin 2) * 1024 + 1 * q.val = q.val; rw [e1]; omega

/-- Window 2 of pallas_call 1 never moves: its block index is `(0, 0)` at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Its block is the whole array. -/
theorem blk1_2 (t : Fin cfg1.N) (p : Fin 512) (q : Fin 1088) :
    iblk1 V c 2 t (ix2 p q) = V c main_arg9 (ix2 p q) := by
  obtain ⟨e0, e1⟩ := idx1_2 t
  unfold iblk1
  rw [View.read_apply]
  show V c main_arg9 _ = V c main_arg9 _
  congr 1
  funext a
  apply Fin.ext
  match a with
  | ⟨0, _⟩ => show win1_2.index t (0 : Fin 2) * 512 + 1 * p.val = p.val; rw [e0]; omega
  | ⟨1, _⟩ => show win1_2.index t (1 : Fin 2) * 1088 + 1 * q.val = q.val; rw [e1]; omega

/-- Window 3 of pallas_call 1 never moves: its block index is `(0, 0)` at every point. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Its block is the whole array. -/
theorem blk1_3 (t : Fin cfg1.N) (p : Fin 1) (q : Fin 512) :
    iblk1 V c 3 t (ix2 p q) = V c main_v5 (ix2 p q) := by
  obtain ⟨e0, e1⟩ := idx1_3 t
  unfold iblk1
  rw [View.read_apply]
  show V c main_v5 _ = V c main_v5 _
  congr 1
  funext a
  apply Fin.ext
  match a with
  | ⟨0, _⟩ => show win1_3.index t (0 : Fin 2) * 1 + 1 * p.val = p.val; rw [e0]; omega
  | ⟨1, _⟩ => show win1_3.index t (1 : Fin 2) * 512 + 1 * q.val = q.val; rw [e1]; omega

/-- Window 4 of pallas_call 1 never moves: its block index is `(0, 0)` at every point. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- Its block is the whole array. -/
theorem blk1_4 (t : Fin cfg1.N) (p : Fin 256) (q : Fin 512) :
    iblk1 V c 4 t (ix2 p q) = V c main_arg11 (ix2 p q) := by
  obtain ⟨e0, e1⟩ := idx1_4 t
  unfold iblk1
  rw [View.read_apply]
  show V c main_arg11 _ = V c main_arg11 _
  congr 1
  funext a
  apply Fin.ext
  match a with
  | ⟨0, _⟩ => show win1_4.index t (0 : Fin 2) * 256 + 1 * p.val = p.val; rw [e0]; omega
  | ⟨1, _⟩ => show win1_4.index t (1 : Fin 2) * 512 + 1 * q.val = q.val; rw [e1]; omega

/-- Window 5 of pallas_call 1 never moves: its block index is `(0, 0)` at every point. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Its block is the whole array. -/
theorem blk1_5 (t : Fin cfg1.N) (p : Fin 1) (q : Fin 256) :
    iblk1 V c 5 t (ix2 p q) = V c main_v6 (ix2 p q) := by
  obtain ⟨e0, e1⟩ := idx1_5 t
  unfold iblk1
  rw [View.read_apply]
  show V c main_v6 _ = V c main_v6 _
  congr 1
  funext a
  apply Fin.ext
  match a with
  | ⟨0, _⟩ => show win1_5.index t (0 : Fin 2) * 1 + 1 * p.val = p.val; rw [e0]; omega
  | ⟨1, _⟩ => show win1_5.index t (1 : Fin 2) * 256 + 1 * q.val = q.val; rw [e1]; omega

/-- Window 6 of pallas_call 1 never moves: its block index is `(0, 0)` at every point. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Its block is the whole array. -/
theorem blk1_6 (t : Fin cfg1.N) (p : Fin 128) (q : Fin 256) :
    iblk1 V c 6 t (ix2 p q) = V c main_arg13 (ix2 p q) := by
  obtain ⟨e0, e1⟩ := idx1_6 t
  unfold iblk1
  rw [View.read_apply]
  show V c main_arg13 _ = V c main_arg13 _
  congr 1
  funext a
  apply Fin.ext
  match a with
  | ⟨0, _⟩ => show win1_6.index t (0 : Fin 2) * 128 + 1 * p.val = p.val; rw [e0]; omega
  | ⟨1, _⟩ => show win1_6.index t (1 : Fin 2) * 256 + 1 * q.val = q.val; rw [e1]; omega

/-- Window 7 of pallas_call 1 never moves: its block index is `(0, 0)` at every point. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Its block is the whole array. -/
theorem blk1_7 (t : Fin cfg1.N) (p : Fin 1) (q : Fin 128) :
    iblk1 V c 7 t (ix2 p q) = V c main_v7 (ix2 p q) := by
  obtain ⟨e0, e1⟩ := idx1_7 t
  unfold iblk1
  rw [View.read_apply]
  show V c main_v7 _ = V c main_v7 _
  congr 1
  funext a
  apply Fin.ext
  match a with
  | ⟨0, _⟩ => show win1_7.index t (0 : Fin 2) * 1 + 1 * p.val = p.val; rw [e0]; omega
  | ⟨1, _⟩ => show win1_7.index t (1 : Fin 2) * 128 + 1 * q.val = q.val; rw [e1]; omega

/-- Window 8 of pallas_call 1 never moves: its block index is `(0, 0)` at every point. -/
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- Its block is the whole array. -/
theorem blk1_8 (t : Fin cfg1.N) (p : Fin 1) (q : Fin 128) :
    iblk1 V c 8 t (ix2 p q) = V c main_arg15 (ix2 p q) := by
  obtain ⟨e0, e1⟩ := idx1_8 t
  unfold iblk1
  rw [View.read_apply]
  show V c main_arg15 _ = V c main_arg15 _
  congr 1
  funext a
  apply Fin.ext
  match a with
  | ⟨0, _⟩ => show win1_8.index t (0 : Fin 2) * 1 + 1 * p.val = p.val; rw [e0]; omega
  | ⟨1, _⟩ => show win1_8.index t (1 : Fin 2) * 128 + 1 * q.val = q.val; rw [e1]; omega

/-- Window 9 of pallas_call 1 never moves: its block index is `(0, 0)` at every point. -/
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- Its block is the whole array. -/
theorem blk1_9 (t : Fin cfg1.N) (p : Fin 1) (q : Fin 1) :
    iblk1 V c 9 t (ix2 p q) = V c main_v8 (ix2 p q) := by
  obtain ⟨e0, e1⟩ := idx1_9 t
  unfold iblk1
  rw [View.read_apply]
  show V c main_v8 _ = V c main_v8 _
  congr 1
  funext a
  apply Fin.ext
  match a with
  | ⟨0, _⟩ => show win1_9.index t (0 : Fin 2) * 1 + 1 * p.val = p.val; rw [e0]; omega
  | ⟨1, _⟩ => show win1_9.index t (1 : Fin 2) * 1 + 1 * q.val = q.val; rw [e1]; omega

end Cert.KernelIdeal.Blocks

end
-- ==== Proof.Net.lean ====
/-
  The network both programs compute, as plain mathematics over the extended reals: eight affine layers applied to each
  of the 65536 points, a rectifier after the first seven, and one maximum over all points in the middle. Nothing here
  mentions a program, a block or a memory: a matrix is a function of a row and a column index, a vector a function of
  one index, and a point's features a function on `Fin k`.

    affine W b x j  =  (∑ q, x q · W j q) + b j          one output channel of x·Wᵀ + b
    dense  W b x j  =  max (affine W b x j) 0             the same, rectified
    h    r = dense W2 b2 (dense W1 b1 (pts r))            the 64 features of point r that are kept
    y4   r = dense W4 b4 (dense W3 b3 (h r))              its 1024 features that are pooled
    g    j = ⨆ r, y4 r j                                  the pooled feature: the maximum over every point
    out  r = affine W8 b8 (dense W7 b7 (dense W6 b6 (dense W5 b5 (cat (h r) g)))) 0

  The maximum over all points is stated as a supremum so that it is used through its universal property only: a
  running maximum over consecutive groups of points, started from -∞, and a single fold over all points are both
  this supremum (`fold_max_bot_eq_iSup`, `iSup_lt_succ`).
-/
import Mathlib.Data.EReal.Basic
import Mathlib.Algebra.BigOperators.Group.Finset.Basic
import Mathlib.Order.CompleteLattice.Basic
import Mathlib.Data.Finset.Fold
import Mathlib.Algebra.BigOperators.Fin

noncomputable section

namespace Cert.Net

open scoped BigOperators

/-- One output channel of `x·Wᵀ + b`. -/
def affine {n k : ℕ} (W : Fin n → Fin k → EReal) (b : Fin n → EReal) (x : Fin k → EReal) (j : Fin n) : EReal :=
  (∑ q : Fin k, x q * W j q) + b j

/-- The same followed by the rectifier `max · 0`. -/
def dense {n k : ℕ} (W : Fin n → Fin k → EReal) (b : Fin n → EReal) (x : Fin k → EReal) (j : Fin n) : EReal :=
  max (affine W b x j) 0

/-- A point's 64 kept features followed by the 1024 pooled ones. -/
def cat (a : Fin 64 → EReal) (g : Fin 1024 → EReal) (q : Fin 1088) : EReal :=
  if hq : q.val < 64 then a ⟨q.val, hq⟩ else g ⟨q.val - 64, by have := q.isLt; omega⟩

/-- The seventeen arguments: the points and the eight layers' weights and biases. -/
structure Args where
  X : Fin 65536 → Fin 3 → EReal
  W1 : Fin 64 → Fin 3 → EReal
  b1 : Fin 64 → EReal
  W2 : Fin 64 → Fin 64 → EReal
  b2 : Fin 64 → EReal
  W3 : Fin 128 → Fin 64 → EReal
  b3 : Fin 128 → EReal
  W4 : Fin 1024 → Fin 128 → EReal
  b4 : Fin 1024 → EReal
  W5 : Fin 512 → Fin 1088 → EReal
  b5 : Fin 512 → EReal
  W6 : Fin 256 → Fin 512 → EReal
  b6 : Fin 256 → EReal
  W7 : Fin 128 → Fin 256 → EReal
  b7 : Fin 128 → EReal
  W8 : Fin 1 → Fin 128 → EReal
  b8 : Fin 1 → EReal

/-- Layers 1 and 2 of one point given by its three coordinates. -/
def hOf (A : Args) (x : Fin 3 → EReal) : Fin 64 → EReal := dense A.W2 A.b2 (dense A.W1 A.b1 x)
/-- Layers 3 and 4 on a point's 64 kept features. -/
def yOf (A : Args) (a : Fin 64 → EReal) : Fin 1024 → EReal := dense A.W4 A.b4 (dense A.W3 A.b3 a)
/-- Layers 5 to 8 on a point's kept features and the pooled feature. -/
def tailOf (A : Args) (a : Fin 64 → EReal) (g : Fin 1024 → EReal) : EReal :=
  affine A.W8 A.b8 (dense A.W7 A.b7 (dense A.W6 A.b6 (dense A.W5 A.b5 (cat a g)))) 0

def h (A : Args) (r : Fin 65536) : Fin 64 → EReal := hOf A (A.X r)
def y4 (A : Args) (r : Fin 65536) : Fin 1024 → EReal := yOf A (h A r)
/-- The pooled feature: channel `j`'s maximum over every point. -/
def g (A : Args) (j : Fin 1024) : EReal := ⨆ r : Fin 65536, y4 A r j
/-- The network's value at point `r`. -/
def out (A : Args) (r : Fin 65536) : EReal := tailOf A (h A r) (g A)

/-- A fold of `max` from -∞ over a whole finite type is the supremum. -/
theorem fold_max_bot_eq_iSup {ι : Type*} [Fintype ι] (f : ι → EReal) :
    (Finset.univ : Finset ι).fold max ⊥ f = ⨆ i, f i :=
  le_antisymm ((Finset.fold_max_le _).2 ⟨bot_le, fun x _ => le_iSup f x⟩)
    (iSup_le fun x => (Finset.le_fold_max _).2 (Or.inr ⟨x, Finset.mem_univ _, le_rfl⟩))

/-- The supremum over the points before group `n`, groups of 512 consecutive points. -/
def gBefore (A : Args) (n : ℕ) (j : Fin 1024) : EReal := ⨆ (r : Fin 65536) (_ : r.val < 512 * n), y4 A r j

theorem gBefore_zero (A : Args) (j : Fin 1024) : gBefore A 0 j = ⊥ := by
  unfold gBefore
  refine le_antisymm (iSup₂_le fun r hr => absurd hr (by omega)) bot_le

/-- Taking in group `n`: the supremum before group `n + 1` is the larger of the one before group `n` and the
    group's own maximum. -/
theorem gBefore_succ (A : Args) (n : ℕ) (hn : n < 128) (j : Fin 1024) :
    gBefore A (n + 1) j
      = max (gBefore A n j) (⨆ p : Fin 512, y4 A ⟨512 * n + p.val, by have := p.isLt; omega⟩ j) := by
  unfold gBefore
  refine le_antisymm (iSup₂_le fun r hr => ?_) (max_le (iSup₂_le fun r hr => ?_) (iSup_le fun p => ?_))
  · by_cases h : r.val < 512 * n
    · exact le_max_of_le_left (le_iSup₂ (f := fun (r : Fin 65536) (_ : r.val < 512 * n) => y4 A r j) r h)
    · refine le_max_of_le_right ?_
      have hp : r.val - 512 * n < 512 := by omega
      have : r = ⟨512 * n + (⟨r.val - 512 * n, hp⟩ : Fin 512).val, by have := r.isLt; dsimp only; omega⟩ :=
        Fin.ext (by dsimp only; omega)
      rw [this]
      exact le_iSup (fun p : Fin 512 => y4 A ⟨512 * n + p.val, by have := p.isLt; omega⟩ j) ⟨r.val - 512 * n, hp⟩
  · exact le_iSup₂ (f := fun (r : Fin 65536) (_ : r.val < 512 * (n + 1)) => y4 A r j) r (by omega)
  · exact le_iSup₂ (f := fun (r : Fin 65536) (_ : r.val < 512 * (n + 1)) => y4 A r j)
      ⟨512 * n + p.val, by have := p.isLt; omega⟩ (by have := p.isLt; dsimp only; omega)

/-- After all 128 groups every point has been taken in. -/
theorem gBefore_all (A : Args) (j : Fin 1024) : gBefore A 128 j = g A j := by
  unfold gBefore g
  exact le_antisymm (iSup₂_le fun r _ => le_iSup (fun r => y4 A r j) r)
    (iSup_le fun r => le_iSup₂ (f := fun (r : Fin 65536) (_ : r.val < 512 * 128) => y4 A r j) r (by have := r.isLt; omega))

end Cert.Net

end
-- ==== Proof.Payload.lean ====
/-
  The kernel's pure values read at an index. Each of the two programs computes, on a tile of 512 points, a chain of
  layers "rows times the weights' rows, plus the bias row, rectified"; the first also takes the tile's maximum per
  channel into a running maximum started from -∞, the second joins the kept features with the pooled feature first and
  ends with one weight row, multiplied in and summed over the channels. Over the extended reals a format change is the
  identity, so every such value, read at a point `p` and a channel `j`, is the network's `dense` / `affine` of
  `Net.lean` on row `p`:

    matmul_rows_apply   a product contracting both last axes, at (p, j), is ∑ k, x (p, k) · w (j, k)
    layer_apply         max (product + bias row) 0 at (p, j) is  dense W b (row p of x) j
    pay4_apply, pay5_apply, pay1_apply, pay2_apply, pay3_apply      the first program's five stored or carried values
    concat_apply, pay2'_apply, tail_apply                           the second program's
-/
import proofs.«148967_j69947837383384_2_alg».proof.Proof.Gen.KernelIdeal.Skeleton
import proofs.«148967_j69947837383384_2_alg».proof.Proof.Net
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen
open scoped BigOperators

/-- The dimension numbers of a product contracting both operands' last axes: `[M,K]` by `[N,K]` gives `[M,N]`. -/
abbrev rowsDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

/-- A matrix product contracting both operands' last axes (`[M,K]` by `[N,K]`) into the zero accumulator, read at an
    output index: the sum over the contracted coordinate of the rows' products. -/
theorem matmul_rows_apply {M K N : ℕ} {φ₁ φ₂ : FTy}
    (wf : DotDims.WF ⟨2, ![M, K]⟩ ⟨2, ![N, K]⟩ ⟨2, ![M, N]⟩ [1] [1] [0] [0] [] [])
    (x : FVec Ideal ⟨2, ![M, K]⟩ φ₁) (w : FVec Ideal ⟨2, ![N, K]⟩ φ₂) (p : Fin M) (j : Fin N) :
    matmul (F := Ideal) (rowsDims wf) none x w (constant ⟨2, ![M, N]⟩ .f32 0x00000000#32) (ix2 p j)
      = ∑ k : Fin K, x (ix2 p k) * w (ix2 j k) := by
  refine (Ideal.matmul_constant_zero_apply (rowsDims wf) none x w (ix2 p j)).trans ?_
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix2 p j) ((contrEquiv1 (rowsDims wf) K rfl rfl).symm k) = ix2 p k :=
    funext fun a => Fin.ext (by
      match a with
      | ⟨0, h0⟩ =>
        unfold DotDims.lhsIdx
        rw [dif_neg (show (⟨0, h0⟩ : Fin 2) ∉ (rowsDims wf).lhsBatch from List.not_mem_nil),
          dif_pos (show (⟨0, h0⟩ : Fin 2) ∈ (rowsDims wf).lhsNonContracting from List.mem_singleton.mpr rfl)]
        rfl
      | ⟨1, _⟩ => exact ((rowsDims wf).lhsIdx_val_of_single rfl _ _).trans hk)
  have er : (rowsDims wf).rhsIdx (ix2 p j) ((contrEquiv1 (rowsDims wf) K rfl rfl).symm k) = ix2 j k :=
    funext fun a => Fin.ext (by
      match a with
      | ⟨0, h0⟩ =>
        unfold DotDims.rhsIdx
        rw [dif_neg (show (⟨0, h0⟩ : Fin 2) ∉ (rowsDims wf).rhsBatch from List.not_mem_nil),
          dif_pos (show (⟨0, h0⟩ : Fin 2) ∈ (rowsDims wf).rhsNonContracting from List.mem_singleton.mpr rfl)]
        rfl
      | ⟨1, _⟩ => exact ((rowsDims wf).rhsIdx_val_of_single rfl _ _).trans hk)
  rw [el, er]

/-- One layer on a tile of rows: the product with the weights' rows, plus the bias row broadcast over the tile, rectified,
    read at row `p` and channel `j`, is the network's `dense` on row `p`. -/
theorem layer_apply {M K N : ℕ} {φ₁ φ₂ : FTy}
    (wf : DotDims.WF ⟨2, ![M, K]⟩ ⟨2, ![N, K]⟩ ⟨2, ![M, N]⟩ [1] [1] [0] [0] [] [])
    (hc : (⟨2, ![1, N]⟩ : Shape).ShapeCasts ⟨2, ![1, N]⟩) (hb : (⟨2, ![1, N]⟩ : Shape).Broadcasts ⟨2, ![M, N]⟩)
    (x : FVec Ideal ⟨2, ![M, K]⟩ φ₁) (w : FVec Ideal ⟨2, ![N, K]⟩ φ₂) (b : FVec Ideal ⟨2, ![1, N]⟩ .f32)
    (p : Fin M) (j : Fin N) :
    maximumf (F := Ideal)
        (addf (matmul (F := Ideal) (rowsDims wf) none x w (constant ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p j)
      = Cert.Net.dense (fun a q => w (ix2 a q)) (fun a => b (ix2 (0 : Fin 1) a)) (fun q => x (ix2 p q)) j := by
  unfold Cert.Net.dense Cert.Net.affine
  refine (maximumf_apply _ _ _).trans ?_
  refine congrArg₂ max ?_ Ideal.ofBits_zero_f32
  refine (addf_apply _ _ _).trans ?_
  refine congrArg₂ (· + ·) (matmul_rows_apply wf x w p j) ?_
  refine (broadcastTo_1b_ab_apply _ hb p j).trans ?_
  rw [shapeCast_self]

/-- Layers 1 and 2 on a tile of 512 points, read at point `p` and channel `j`. -/
theorem pay4_apply (v3 : FVec Ideal S512x3 .f32) (v5 : FVec Ideal S64x3 .f32) (v9 : FVec Ideal S1x64 .f32)
    (v15 : FVec Ideal S64x64 .f32) (v19 : FVec Ideal S1x64 .f32) (p : Fin 512) (j : Fin 64) :
    k0_pay4 (F := Ideal) v3 v5 v9 v15 v19 (ix2 p j)
      = Cert.Net.dense (fun a b => v15 (ix2 a b)) (fun a => v19 (ix2 (0 : Fin 1) a))
          (Cert.Net.dense (fun a b => v5 (ix2 a b)) (fun a => v9 (ix2 (0 : Fin 1) a)) (fun q => v3 (ix2 p q))) j := by
  unfold k0_pay4
  refine (layer_apply _ _ _ _ _ v19 p j).trans ?_
  refine congrArg (fun f => Cert.Net.dense (fun a b => v15 (ix2 a b)) (fun a => v19 (ix2 (0 : Fin 1) a)) f j)
    (funext fun q => ?_)
  refine (layer_apply _ _ _ _ _ v9 p q).trans ?_
  rw [shapeCast_self]
  rfl

/-- Layer 3 on the tile, over layers 1 and 2. -/
theorem pay5_apply (v3 : FVec Ideal S512x3 .f32) (v5 : FVec Ideal S64x3 .f32) (v9 : FVec Ideal S1x64 .f32)
    (v15 : FVec Ideal S64x64 .f32) (v19 : FVec Ideal S1x64 .f32) (v25 : FVec Ideal S128x64 .f32)
    (v29 : FVec Ideal S1x128 .f32) (p : Fin 512) (j : Fin 128) :
    k0_pay5 (F := Ideal) v3 v5 v9 v15 v19 v25 v29 (ix2 p j)
      = Cert.Net.dense (fun a b => v25 (ix2 a b)) (fun a => v29 (ix2 (0 : Fin 1) a))
          (fun q => k0_pay4 (F := Ideal) v3 v5 v9 v15 v19 (ix2 p q)) j := by
  unfold k0_pay5
  exact layer_apply _ _ _ _ _ v29 p j

/-- The kept features are stored as they are: a format change is the identity on extended reals. -/
theorem pay2_apply (v24 : FVec Ideal S512x64 .f32) (i : S512x64.Idx) : k0_pay2 (F := Ideal) v24 i = v24 i := rfl

/-- The running maximum starts from -∞. -/
theorem pay3_apply (i : S1x1024.Idx) : k0_pay3 (F := Ideal) i = ⊥ := by
  unfold k0_pay3
  show Ideal.ofBits .f32 0xFF800000#32 = ⊥
  simp [Ideal.ofBits, Ideal.ieee]

/-- The word `0xFF800000` is -∞. -/
theorem ofBits_neg_inf_f32 : Ideal.ofBits .f32 0xFF800000#32 = ⊥ := by simp [Ideal.ofBits, Ideal.ieee]

/-- Layer 4 on the tile, its maximum over the tile's 512 points, and the running maximum: read at channel `j`. -/
theorem pay1_apply (v34 : FVec Ideal S512x128 .f32) (v35 : FVec Ideal S1024x128 .f32) (v39 v47 : FVec Ideal S1x1024 .f32)
    (j : Fin 1024) :
    k0_pay1 (F := Ideal) v34 v35 v39 v47 (ix2 (0 : Fin 1) j)
      = max (v47 (ix2 (0 : Fin 1) j))
          (⨆ p : Fin 512, Cert.Net.dense (fun a b => v35 (ix2 a b)) (fun a => v39 (ix2 (0 : Fin 1) a))
            (fun q => v34 (ix2 p q)) j) := by
  unfold k0_pay1
  refine (maximumf_apply _ _ _).trans ?_
  refine congrArg₂ max ?_ ?_
  · rw [shapeCast_self]
  · refine (shapeCast_a_1a_apply _ _ (0 : Fin 1) j).trans ?_
    refine (Ideal.multiReduction_maximumf_single _ _ _ _ _ (ix1 j)).trans ?_
    refine (congrArg (fun z => Finset.fold max z _ Finset.univ) ofBits_neg_inf_f32).trans ?_
    refine (Cert.Net.fold_max_bot_eq_iSup _).trans ?_
    refine iSup_congr fun (p : Fin 512) => ?_
    have hl : reduces_S512x1024_S1024.lift (ix1 j) p = ix2 p j :=
      funext fun c => Fin.ext (by match c with | ⟨0, _⟩ => rfl | ⟨1, _⟩ => rfl)
    refine (Function.comp_apply).trans ?_
    refine (congrArg _ hl).trans ?_
    exact layer_apply _ _ _ _ _ v39 p j

/-- The two blocks joined along the channels, read at a point and a channel: the first block below channel 64, the second
    from there on. -/
theorem concat_apply (v1 : FVec Ideal S512x64 .bf16) (v6 : FVec Ideal S512x1024 .bf16) (p : Fin 512) (q : Fin 1088) :
    concatenate S512x1088 1 [⟨S512x64, v1⟩, ⟨S512x1024, v6⟩] concatenates_S512x64_S512x1024_S512x1088_d1 (ix2 p q)
      = if hq : q.val < 64 then v1 (ix2 p (⟨q.val, hq⟩ : Fin 64))
        else v6 (ix2 p (⟨q.val - 64, by have := q.isLt; omega⟩ : Fin 1024)) := by
  by_cases hq : q.val < 64
  · rw [dif_pos hq]
    exact concatenate_pair_apply_left (1 : Fin 2) v1 v6 concatenates_S512x64_S512x1024_S512x1088_d1 (ix2 p q) rfl
      (ix2 p (⟨q.val, hq⟩ : Fin 64)) (fun b => match b with | ⟨0, _⟩ => rfl | ⟨1, _⟩ => rfl)
  · rw [dif_neg hq]
    exact concatenate_pair_apply_right (1 : Fin 2) v1 v6 concatenates_S512x64_S512x1024_S512x1088_d1 (ix2 p q) rfl rfl
      (ix2 p (⟨q.val - 64, by have := q.isLt; omega⟩ : Fin 1024))
      (fun b hb => match b, hb with | ⟨0, _⟩, _ => rfl | ⟨1, _⟩, hb => absurd rfl hb)
      (by show q.val - 64 + 64 = q.val; omega)

/-- Layers 5 to 7 on a tile of 512 points whose rows are the kept features followed by the pooled feature. -/
theorem pay2'_apply (v0 : FVec Ideal S512x64 .bf16) (v2 : FVec Ideal S1x1024 .f32) (v8 : FVec Ideal S512x1088 .f32)
    (v11 : FVec Ideal S1x512 .f32) (v17 : FVec Ideal S256x512 .f32) (v21 : FVec Ideal S1x256 .f32)
    (v27 : FVec Ideal S128x256 .f32) (v31 : FVec Ideal S1x128 .f32) (p : Fin 512) (j : Fin 128) :
    k1_pay2 (F := Ideal) v0 v2 v8 v11 v17 v21 v27 v31 (ix2 p j)
      = Cert.Net.dense (fun a b => v27 (ix2 a b)) (fun a => v31 (ix2 (0 : Fin 1) a))
          (Cert.Net.dense (fun a b => v17 (ix2 a b)) (fun a => v21 (ix2 (0 : Fin 1) a))
            (Cert.Net.dense (fun a b => v8 (ix2 a b)) (fun a => v11 (ix2 (0 : Fin 1) a))
              (Cert.Net.cat (fun q => v0 (ix2 p q)) (fun q => v2 (ix2 (0 : Fin 1) q))))) j := by
  unfold k1_pay2
  refine (layer_apply _ _ _ _ _ v31 p j).trans ?_
  refine congrArg (fun f => Cert.Net.dense (fun a b => v27 (ix2 a b)) (fun a => v31 (ix2 (0 : Fin 1) a)) f j)
    (funext fun q => ?_)
  refine (layer_apply _ _ _ _ _ v21 p q).trans ?_
  refine congrArg (fun f => Cert.Net.dense (fun a b => v17 (ix2 a b)) (fun a => v21 (ix2 (0 : Fin 1) a)) f q)
    (funext fun r => ?_)
  refine (layer_apply _ _ _ _ _ v11 p r).trans ?_
  refine congrArg (fun f => Cert.Net.dense (fun a b => v8 (ix2 a b)) (fun a => v11 (ix2 (0 : Fin 1) a)) f r)
    (funext fun s => ?_)
  refine (concat_apply _ _ p s).trans ?_
  unfold Cert.Net.cat
  by_cases hs : s.val < 64
  · rw [dif_pos hs, dif_pos hs, shapeCast_self]
  · rw [dif_neg hs, dif_neg hs]
    refine (broadcastTo_1b_ab_apply _ _ p _).trans ?_
    rw [shapeCast_self]
    show shapeCast S1x1024 v2 _ (ix2 (0 : Fin 1) _) = v2 (ix2 (0 : Fin 1) _)
    rw [shapeCast_self]

/-- Layer 8 on the tile — the products with the one weight row summed over the 128 channels, plus the bias — over layers
    5 to 7, read at point `p`. -/
theorem tail_apply (v0 : FVec Ideal S512x64 .bf16) (v2 : FVec Ideal S1x1024 .f32) (v8 : FVec Ideal S512x1088 .f32)
    (v11 : FVec Ideal S1x512 .f32) (v17 : FVec Ideal S256x512 .f32) (v21 : FVec Ideal S1x256 .f32)
    (v27 : FVec Ideal S128x256 .f32) (v31 : FVec Ideal S1x128 .f32) (v37 : FVec Ideal S1x128 .f32)
    (v42 : FVec Ideal S1x1 .f32) (p : Fin 512) :
    k1_pay1 (F := Ideal) (k1_pay2 (F := Ideal) v0 v2 v8 v11 v17 v21 v27 v31) v37 v42 (ix2 p (0 : Fin 1))
      = Cert.Net.affine (fun a b => v37 (ix2 a b)) (fun a => v42 (ix2 (0 : Fin 1) a))
          (Cert.Net.dense (fun a b => v27 (ix2 a b)) (fun a => v31 (ix2 (0 : Fin 1) a))
            (Cert.Net.dense (fun a b => v17 (ix2 a b)) (fun a => v21 (ix2 (0 : Fin 1) a))
              (Cert.Net.dense (fun a b => v8 (ix2 a b)) (fun a => v11 (ix2 (0 : Fin 1) a))
                (Cert.Net.cat (fun q => v0 (ix2 p q)) (fun q => v2 (ix2 (0 : Fin 1) q)))))) (0 : Fin 1) := by
  unfold k1_pay1 Cert.Net.affine
  refine (addf_apply _ _ _).trans ?_
  refine congrArg₂ (· + ·) ?_ ?_
  · refine (shapeCast_apply _ _ (ix2 p (0 : Fin 1)) (ix1 p) ?_).trans ?_
    · rw [Shape.rowMajor_val_one, Shape.rowMajor_val_two]
      show p.val = p.val * 1 + 0
      omega
    refine (Ideal.multiReduction_add_single _ _ _ _ _ (ix1 p)).trans ?_
    refine Finset.sum_congr rfl fun (k : Fin 128) _ => ?_
    have hl : reduces_S512x128_S512.lift (ix1 p) k = ix2 p k :=
      funext fun c => Fin.ext (by match c with | ⟨0, _⟩ => rfl | ⟨1, _⟩ => rfl)
    refine (congrArg _ hl).trans ?_
    refine (mulf_apply _ _ _).trans ?_
    exact congrArg₂ (· * ·) (pay2'_apply v0 v2 v8 v11 v17 v21 v27 v31 p k) (broadcastTo_1b_ab_apply v37 _ p k)
  · refine (broadcastTo_1b_ab_apply _ _ p (0 : Fin 1)).trans ?_
    rw [shapeCast_self]

end Cert.KernelIdeal.Pay

end
-- ==== Proof.KValue.lean ====
/-
  The kernel's three intermediate arrays as the network's values, at the extended reals. Under the hypothesis that a
  pallas_call finds the network's arguments in its input arrays (`In0`, `In1`: stated entry by entry), what its points
  leave is the network's: block `t`'s kept features are `h` of the points 512·t … 512·t + 511, the running merge after
  point `n` is the supremum of the pooled features over the points before group `n + 1`, hence after the last point the
  pooled feature `g`; and the second call's stored values are `out` of its points.
-/
import proofs.«148967_j69947837383384_2_alg».proof.Proof.Region0Arr
import proofs.«148967_j69947837383384_2_alg».proof.Proof.Region1
import proofs.«148967_j69947837383384_2_alg».proof.Proof.Blocks
import proofs.«148967_j69947837383384_2_alg».proof.Proof.Payload
import proofs.«148967_j69947837383384_2_alg».proof.Proof.Net

set_option maxRecDepth 16384

noncomputable section

namespace Cert.Net

/-- `dense` of equal weights, biases and features. -/
theorem dense_congr {n k : ℕ} {W W' : Fin n → Fin k → EReal} {b b' : Fin n → EReal} {x x' : Fin k → EReal}
    (hW : ∀ a q, W a q = W' a q) (hb : ∀ a, b a = b' a) (hx : ∀ q, x q = x' q) (j : Fin n) :
    dense W b x j = dense W' b' x' j := by
  obtain rfl : W = W' := funext fun a => funext (hW a)
  obtain rfl : b = b' := funext hb
  obtain rfl : x = x' := funext hx
  rfl

/-- `affine` of equal weights, biases and features. -/
theorem affine_congr {n k : ℕ} {W W' : Fin n → Fin k → EReal} {b b' : Fin n → EReal} {x x' : Fin k → EReal}
    (hW : ∀ a q, W a q = W' a q) (hb : ∀ a, b a = b' a) (hx : ∀ q, x q = x' q) (j : Fin n) :
    affine W b x j = affine W' b' x' j := by
  obtain rfl : W = W' := funext fun a => funext (hW a)
  obtain rfl : b = b' := funext hb
  obtain rfl : x = x' := funext hx
  rfl

/-- `cat` of equal parts. -/
theorem cat_congr {a a' : Fin 64 → EReal} {g g' : Fin 1024 → EReal} (ha : ∀ q, a q = a' q) (hg : ∀ q, g q = g' q)
    (q : Fin 1088) : cat a g q = cat a' g' q := by
  obtain rfl : a = a' := funext ha
  obtain rfl : g = g' := funext hg
  rfl

end Cert.Net

namespace Cert.KernelIdeal.KVal

open Cert.KernelIdeal Cert.KernelIdeal.Gen
open Idealize.ShloMosaic Idealize.ShloMosaic.TcCoe Idealize.SL.Sem Idealize.ShloMosaic.ValueIdx
open Cert.Net

variable (V : (c : Dev nD) → (b : Ref sig .tc) → Buf (Elt Ideal) ((c : Thread nD τ).loc b)) (c : Dev nD) (A : Net.Args)

/-- The first pallas_call finds the points and the first four layers in its nine input arrays. -/
structure In0 : Prop where
  X : ∀ (r : Fin 65536) (q : Fin 3), V c main_v0 (ix2 r q) = A.X r q
  W1 : ∀ (j : Fin 64) (q : Fin 3), V c main_arg1 (ix2 j q) = A.W1 j q
  b1 : ∀ j : Fin 64, V c main_v1 (ix2 (0 : Fin 1) j) = A.b1 j
  W2 : ∀ (j : Fin 64) (q : Fin 64), V c main_arg3 (ix2 j q) = A.W2 j q
  b2 : ∀ j : Fin 64, V c main_v2 (ix2 (0 : Fin 1) j) = A.b2 j
  W3 : ∀ (j : Fin 128) (q : Fin 64), V c main_arg5 (ix2 j q) = A.W3 j q
  b3 : ∀ j : Fin 128, V c main_v3 (ix2 (0 : Fin 1) j) = A.b3 j
  W4 : ∀ (j : Fin 1024) (q : Fin 128), V c main_arg7 (ix2 j q) = A.W4 j q
  b4 : ∀ j : Fin 1024, V c main_v4 (ix2 (0 : Fin 1) j) = A.b4 j

/-- The second pallas_call finds the kept features, the pooled feature and the last four layers in its ten. -/
structure In1 : Prop where
  H : ∀ (r : Fin 65536) (q : Fin 64), V c main_v9_0 (ix2 r q) = Net.h A r q
  G : ∀ j : Fin 1024, V c main_v9_1 (ix2 (0 : Fin 1) j) = Net.g A j
  W5 : ∀ (j : Fin 512) (q : Fin 1088), V c main_arg9 (ix2 j q) = A.W5 j q
  b5 : ∀ j : Fin 512, V c main_v5 (ix2 (0 : Fin 1) j) = A.b5 j
  W6 : ∀ (j : Fin 256) (q : Fin 512), V c main_arg11 (ix2 j q) = A.W6 j q
  b6 : ∀ j : Fin 256, V c main_v6 (ix2 (0 : Fin 1) j) = A.b6 j
  W7 : ∀ (j : Fin 128) (q : Fin 256), V c main_arg13 (ix2 j q) = A.W7 j q
  b7 : ∀ j : Fin 128, V c main_v7 (ix2 (0 : Fin 1) j) = A.b7 j
  W8 : ∀ (j : Fin 1) (q : Fin 128), V c main_arg15 (ix2 j q) = A.W8 j q
  b8 : ∀ j : Fin 1, V c main_v8 (ix2 (0 : Fin 1) j) = A.b8 j

variable {V c A}

/-- The row of the point-indexed arrays that entry `p` of block `t` is. -/
abbrev rowOf (t : Fin cfg0.N) (p : Fin 512) : Fin 65536 :=
  ⟨512 * t.val + p.val, by have ht : t.val < cfg0.N := t.isLt; have hN : cfg0.N = 128 := N_0; have hp : p.val < 512 := p.isLt; omega⟩

/-! ## The first pallas_call -/

/-- Layers 1 and 2 on block `t`. -/
theorem pay4_blk (h0 : In0 V c A) (t : Fin cfg0.N) (p : Fin 512) (j : Fin 64) :
    k0_pay4 (F := Ideal) (iblk0 V c 0 t) (iblk0 V c 1 t) (iblk0 V c 2 t) (iblk0 V c 3 t) (iblk0 V c 4 t) (ix2 p j)
      = Net.h A (rowOf t p) j :=
  (Pay.pay4_apply _ _ _ _ _ p j).trans <|
    dense_congr (fun a q => (Blocks.blk0_3 V c t a q).trans (h0.W2 a q)) (fun a => (Blocks.blk0_4 V c t 0 a).trans (h0.b2 a))
      (fun q' => dense_congr (fun a q => (Blocks.blk0_1 V c t a q).trans (h0.W1 a q))
        (fun a => (Blocks.blk0_2 V c t 0 a).trans (h0.b1 a)) (fun q => (Blocks.blk0_0 V c t p q).trans (h0.X _ q)) q') j

/-- Block `t`'s kept features are `h` of its points. -/
theorem hBlk_apply (h0 : In0 V c A) (t : Fin cfg0.N) (p : Fin 512) (j : Fin 64) :
    Reg0.hBlk V c t (ix2 p j) = Net.h A (rowOf t p) j :=
  (Pay.pay2_apply _ _).trans (pay4_blk h0 t p j)

/-- Layers 3 and 4 on block `t`: the pooled features of its points. -/
theorem tile_apply (h0 : In0 V c A) (t : Fin cfg0.N) (p : Fin 512) (j : Fin 1024) :
    Net.dense (fun a b => iblk0 V c 7 t (ix2 a b)) (fun a => iblk0 V c 8 t (ix2 (0 : Fin 1) a))
        (fun q => Reg0.yBlk V c t (ix2 p q)) j
      = Net.y4 A (rowOf t p) j :=
  dense_congr (fun a q => (Blocks.blk0_7 V c t a q).trans (h0.W4 a q)) (fun a => (Blocks.blk0_8 V c t 0 a).trans (h0.b4 a))
    (fun q' => (Pay.pay5_apply _ _ _ _ _ _ _ p q').trans <|
      dense_congr (fun a q => (Blocks.blk0_5 V c t a q).trans (h0.W3 a q)) (fun a => (Blocks.blk0_6 V c t 0 a).trans (h0.b3 a))
        (fun q => pay4_blk h0 t p q) q') j

/-- The running merge after point `n` is the supremum of the pooled features over the points before group `n + 1`. -/
theorem gChain_apply (h0 : In0 V c A) : ∀ (n : ℕ) (h : n < cfg0.N) (j : Fin 1024),
    Reg0.gChain V c n h (ix2 (0 : Fin 1) j) = Net.gBefore A (n + 1) j
  | 0, h, j => by
    rw [Reg0.gChain]
    refine (Pay.pay1_apply _ _ _ _ j).trans ?_
    rw [Net.gBefore_succ A 0 (by decide) j, Net.gBefore_zero]
    exact congrArg₂ max (Pay.pay3_apply _) (iSup_congr fun p => tile_apply h0 ⟨0, h⟩ p j)
  | n + 1, h, j => by
    have hN : cfg0.N = 128 := N_0
    rw [Reg0.gChain]
    refine (Pay.pay1_apply _ _ _ _ j).trans ?_
    rw [Net.gBefore_succ A (n + 1) (by omega) j]
    exact congrArg₂ max (gChain_apply h0 n _ j) (iSup_congr fun p => tile_apply h0 ⟨n + 1, h⟩ p j)

/-- The kept-features array is `h`, row by row. -/
theorem hArr_apply (h0 : In0 V c A) (r : Fin 65536) (q : Fin 64) : Reg0.hArr V c (ix2 r q) = Net.h A r q := by
  unfold Reg0.hArr
  refine (hBlk_apply h0 _ _ _).trans ?_
  exact congrArg (fun r' => Net.h A r' q) (Fin.ext (by show 512 * (r.val / 512) + r.val % 512 = r.val; omega))

/-- The pooled-feature array is `g`. -/
theorem gArr_apply (h0 : In0 V c A) (j : Fin 1024) : Reg0.gArr V c (ix2 (0 : Fin 1) j) = Net.g A j :=
  (gChain_apply h0 127 _ j).trans (Net.gBefore_all A j)

/-! ## The second pallas_call -/

/-- What point `t` stores is `out` of its points. -/
theorem zBlk_apply (h1 : In1 V c A) (t : Fin cfg1.N) (p : Fin 512) :
    Reg1.zBlk V c t (ix2 p (0 : Fin 1))
      = Net.out A ⟨512 * t.val + p.val, by have ht : t.val < cfg1.N := t.isLt; have hN : cfg1.N = 128 := N_1; have hp : p.val < 512 := p.isLt; omega⟩ :=
  (Pay.tail_apply _ _ _ _ _ _ _ _ _ _ p).trans <|
    affine_congr (fun a q => (Blocks.blk1_8 V c t a q).trans (h1.W8 a q)) (fun a => (Blocks.blk1_9 V c t 0 a).trans (h1.b8 a))
      (fun q7 => dense_congr (fun a q => (Blocks.blk1_6 V c t a q).trans (h1.W7 a q)) (fun a => (Blocks.blk1_7 V c t 0 a).trans (h1.b7 a))
        (fun q6 => dense_congr (fun a q => (Blocks.blk1_4 V c t a q).trans (h1.W6 a q)) (fun a => (Blocks.blk1_5 V c t 0 a).trans (h1.b6 a))
          (fun q5 => dense_congr (fun a q => (Blocks.blk1_2 V c t a q).trans (h1.W5 a q)) (fun a => (Blocks.blk1_3 V c t 0 a).trans (h1.b5 a))
            (fun q4 => cat_congr (fun q => (Blocks.blk1_0 V c t p q).trans (h1.H _ q)) (fun q => (Blocks.blk1_1 V c t 0 q).trans (h1.G q)) q4)
            q5) q6) q7) 0

/-- The result array is `out`, row by row. -/
theorem zArr_apply (h1 : In1 V c A) (r : Fin 65536) : Reg1.zArr V c (ix2 r (0 : Fin 1)) = Net.out A r := by
  unfold Reg1.zArr
  refine (zBlk_apply h1 _ _).trans ?_
  exact congrArg (Net.out A) (Fin.ext (by show 512 * (r.val / 512) + r.val % 512 = r.val; omega))

end Cert.KernelIdeal.KVal

end
-- ==== Proof.Args.lean ====
/-
  The seventeen argument arrays read as the network's arguments: a rank-2 array is the matrix of its two coordinates, a
  rank-1 array the vector of its one coordinate, and the [1, 1, 65536, 3] array of points is the point `r`'s coordinate
  `q` at `(0, 0, r, q)`.
-/
import Idealize.ShloMosaic.PureOps.Ideal
import Idealize.ShloMosaic.Lib.ValueIdx
import proofs.«148967_j69947837383384_2_alg».proof.Proof.Net

noncomputable section

namespace Cert.Net

open Idealize.ShloMosaic Idealize.ShloMosaic.ValueIdx

/-- The network's arguments out of the seventeen arrays, in the programs' argument order. -/
def mkArgs (x0 : (⟨4, ![1, 1, 65536, 3]⟩ : Shape).Idx → EReal)
    (x1 : (⟨2, ![64, 3]⟩ : Shape).Idx → EReal) (x2 : (⟨1, ![64]⟩ : Shape).Idx → EReal)
    (x3 : (⟨2, ![64, 64]⟩ : Shape).Idx → EReal) (x4 : (⟨1, ![64]⟩ : Shape).Idx → EReal)
    (x5 : (⟨2, ![128, 64]⟩ : Shape).Idx → EReal) (x6 : (⟨1, ![128]⟩ : Shape).Idx → EReal)
    (x7 : (⟨2, ![1024, 128]⟩ : Shape).Idx → EReal) (x8 : (⟨1, ![1024]⟩ : Shape).Idx → EReal)
    (x9 : (⟨2, ![512, 1088]⟩ : Shape).Idx → EReal) (x10 : (⟨1, ![512]⟩ : Shape).Idx → EReal)
    (x11 : (⟨2, ![256, 512]⟩ : Shape).Idx → EReal) (x12 : (⟨1, ![256]⟩ : Shape).Idx → EReal)
    (x13 : (⟨2, ![128, 256]⟩ : Shape).Idx → EReal) (x14 : (⟨1, ![128]⟩ : Shape).Idx → EReal)
    (x15 : (⟨2, ![1, 128]⟩ : Shape).Idx → EReal) (x16 : (⟨1, ![1]⟩ : Shape).Idx → EReal) : Args where
  X r q := x0 (ix4 (0 : Fin 1) (0 : Fin 1) r q)
  W1 j q := x1 (ix2 j q)
  b1 j := x2 (ix1 j)
  W2 j q := x3 (ix2 j q)
  b2 j := x4 (ix1 j)
  W3 j q := x5 (ix2 j q)
  b3 j := x6 (ix1 j)
  W4 j q := x7 (ix2 j q)
  b4 j := x8 (ix1 j)
  W5 j q := x9 (ix2 j q)
  b5 j := x10 (ix1 j)
  W6 j q := x11 (ix2 j q)
  b6 j := x12 (ix1 j)
  W7 j q := x13 (ix2 j q)
  b7 j := x14 (ix1 j)
  W8 j q := x15 (ix2 j q)
  b8 j := x16 (ix1 j)

/-- The result array [1, 1, 65536, 1] of the network: entry `(0, 0, r, 0)` is the value at point `r`. -/
def result (A : Args) : (⟨4, ![1, 1, 65536, 1]⟩ : Shape).Idx → EReal :=
  fun i => out A ⟨(i 2).val, (i 2).isLt⟩

end Cert.Net

end
-- ==== Proof.KHost.lean ====
/-
  The host side of the idealized kernel's @main, read at an index. Before the first pallas_call nine reshapes lay the
  points out as a [65536, 3] matrix and each bias as a [1, n] row; the weight matrices are passed as they are. Between
  the two calls nothing happens: the second call finds the first one's two result arrays and, elsewhere, what the first
  found. After the second call one reshape presents its [65536, 1] result as [1, 1, 65536, 1]. Reading all of it at an
  index: the first call finds the network's arguments, so the second finds `h`, `g` and the last four layers, and the
  program's result is the network's.
-/
import proofs.«148967_j69947837383384_2_alg».proof.Proof.KValue
import proofs.«148967_j69947837383384_2_alg».proof.Proof.Args
import Idealize.ShloMosaic.Lib.StableHlo.Run
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.SL.Sem Idealize.ShloMosaic.ValueIdx Idealize.ShloMosaic.StableHlo

/-- The points' reshape [1, 1, 65536, 3] → [65536, 3] reads `(r, q)` at `(0, 0, r, q)`. -/
theorem cast_pts {α : Type} (x : (⟨4, ![1, 1, 65536, 3]⟩ : Shape).Idx → α)
    (h : (⟨4, ![1, 1, 65536, 3]⟩ : Shape).ShapeCasts ⟨2, ![65536, 3]⟩) (r : Fin 65536) (q : Fin 3) :
    shapeCast ⟨2, ![65536, 3]⟩ x h (ix2 r q) = x (ix4 (0 : Fin 1) (0 : Fin 1) r q) :=
  shapeCast_apply x h _ _ (by
    rw [Shape.rowMajor_val_four, Shape.rowMajor_val_two]
    show ((0 * 1 + 0) * 65536 + r.val) * 3 + q.val = r.val * 3 + q.val
    simp only [Nat.zero_mul, Nat.zero_add])

/-- The result's reshape [65536, 1] → [1, 1, 65536, 1] reads `(·, ·, r, ·)` at `(r, 0)`. -/
theorem cast_out {α : Type} (x : (⟨2, ![65536, 1]⟩ : Shape).Idx → α)
    (h : (⟨2, ![65536, 1]⟩ : Shape).ShapeCasts ⟨4, ![1, 1, 65536, 1]⟩) (i : (⟨4, ![1, 1, 65536, 1]⟩ : Shape).Idx) :
    shapeCast ⟨4, ![1, 1, 65536, 1]⟩ x h i = x (ix2 (⟨(i 2).val, (i 2).isLt⟩ : Fin 65536) (0 : Fin 1)) :=
  shapeCast_apply x h _ _ (by
    have h0 : (i 0).val < 1 := (i 0).isLt
    have h1 : (i 1).val < 1 := (i 1).isLt
    have h3 : (i 3).val < 1 := (i 3).isLt
    rw [Shape.rowMajor_val_two, Shape.rowMajor_val_four]
    show (i 2).val * 1 + 0 = (((i 0).val * 1 + (i 1).val) * 65536 + (i 2).val) * 1 + (i 3).val
    omega)

variable (m : (ℓ : Loc nD τ sig) → Buf (Elt Ideal) ℓ) (ρ : Dev nD → PrngReg) (c : Dev nD)

/-- The network's arguments as core `c`'s memory holds them at launch. -/
def argsOf : Net.Args :=
  Net.mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-! ## What the first pallas_call finds -/

theorem V1_main_v0 : (V1 m ρ c main_v0 : S65536x3.Idx → EReal) = shapeCast S65536x3 (m ((c.tc : Thread nD τ).loc main_arg0)) shapeCasts_S1x1x65536x3_S65536x3 := by
  show StableHlo.after hostOps0 (W0 m ρ c) (Proc.devRef .tc main_v0) = _
  after_results; rfl
theorem V1_main_v1 : (V1 m ρ c main_v1 : S1x64.Idx → EReal) = shapeCast S1x64 (m ((c.tc : Thread nD τ).loc main_arg2)) shapeCasts_S64_S1x64 := by
  show StableHlo.after hostOps0 (W0 m ρ c) (Proc.devRef .tc main_v1) = _
  after_results; rfl
theorem V1_main_v2 : (V1 m ρ c main_v2 : S1x64.Idx → EReal) = shapeCast S1x64 (m ((c.tc : Thread nD τ).loc main_arg4)) shapeCasts_S64_S1x64 := by
  show StableHlo.after hostOps0 (W0 m ρ c) (Proc.devRef .tc main_v2) = _
  after_results; rfl
theorem V1_main_v3 : (V1 m ρ c main_v3 : S1x128.Idx → EReal) = shapeCast S1x128 (m ((c.tc : Thread nD τ).loc main_arg6)) shapeCasts_S128_S1x128 := by
  show StableHlo.after hostOps0 (W0 m ρ c) (Proc.devRef .tc main_v3) = _
  after_results; rfl
theorem V1_main_v4 : (V1 m ρ c main_v4 : S1x1024.Idx → EReal) = shapeCast S1x1024 (m ((c.tc : Thread nD τ).loc main_arg8)) shapeCasts_S1024_S1x1024 := by
  show StableHlo.after hostOps0 (W0 m ρ c) (Proc.devRef .tc main_v4) = _
  after_results; rfl
theorem V1_main_v5 : (V1 m ρ c main_v5 : S1x512.Idx → EReal) = shapeCast S1x512 (m ((c.tc : Thread nD τ).loc main_arg10)) shapeCasts_S512_S1x512 := by
  show StableHlo.after hostOps0 (W0 m ρ c) (Proc.devRef .tc main_v5) = _
  after_results; rfl
theorem V1_main_v6 : (V1 m ρ c main_v6 : S1x256.Idx → EReal) = shapeCast S1x256 (m ((c.tc : Thread nD τ).loc main_arg12)) shapeCasts_S256_S1x256 := by
  show StableHlo.after hostOps0 (W0 m ρ c) (Proc.devRef .tc main_v6) = _
  after_results; rfl
theorem V1_main_v7 : (V1 m ρ c main_v7 : S1x128.Idx → EReal) = shapeCast S1x128 (m ((c.tc : Thread nD τ).loc main_arg14)) shapeCasts_S128_S1x128 := by
  show StableHlo.after hostOps0 (W0 m ρ c) (Proc.devRef .tc main_v7) = _
  after_results; rfl
theorem V1_main_v8 : (V1 m ρ c main_v8 : S1x1.Idx → EReal) = shapeCast S1x1 (m ((c.tc : Thread nD τ).loc main_arg16)) shapeCasts_S1_S1x1 := by
  show StableHlo.after hostOps0 (W0 m ρ c) (Proc.devRef .tc main_v8) = _
  after_results; rfl
theorem V1_main_arg1 : (V1 m ρ c main_arg1 : S64x3.Idx → EReal) = (m ((c.tc : Thread nD τ).loc main_arg1)) := by
  show StableHlo.after hostOps0 (W0 m ρ c) (Proc.devRef .tc main_arg1) = _
  after_results
theorem V1_main_arg3 : (V1 m ρ c main_arg3 : S64x64.Idx → EReal) = (m ((c.tc : Thread nD τ).loc main_arg3)) := by
  show StableHlo.after hostOps0 (W0 m ρ c) (Proc.devRef .tc main_arg3) = _
  after_results
theorem V1_main_arg5 : (V1 m ρ c main_arg5 : S128x64.Idx → EReal) = (m ((c.tc : Thread nD τ).loc main_arg5)) := by
  show StableHlo.after hostOps0 (W0 m ρ c) (Proc.devRef .tc main_arg5) = _
  after_results
theorem V1_main_arg7 : (V1 m ρ c main_arg7 : S1024x128.Idx → EReal) = (m ((c.tc : Thread nD τ).loc main_arg7)) := by
  show StableHlo.after hostOps0 (W0 m ρ c) (Proc.devRef .tc main_arg7) = _
  after_results
theorem V1_main_arg9 : (V1 m ρ c main_arg9 : S512x1088.Idx → EReal) = (m ((c.tc : Thread nD τ).loc main_arg9)) := by
  show StableHlo.after hostOps0 (W0 m ρ c) (Proc.devRef .tc main_arg9) = _
  after_results
theorem V1_main_arg11 : (V1 m ρ c main_arg11 : S256x512.Idx → EReal) = (m ((c.tc : Thread nD τ).loc main_arg11)) := by
  show StableHlo.after hostOps0 (W0 m ρ c) (Proc.devRef .tc main_arg11) = _
  after_results
theorem V1_main_arg13 : (V1 m ρ c main_arg13 : S128x256.Idx → EReal) = (m ((c.tc : Thread nD τ).loc main_arg13)) := by
  show StableHlo.after hostOps0 (W0 m ρ c) (Proc.devRef .tc main_arg13) = _
  after_results
theorem V1_main_arg15 : (V1 m ρ c main_arg15 : S1x128.Idx → EReal) = (m ((c.tc : Thread nD τ).loc main_arg15)) := by
  show StableHlo.after hostOps0 (W0 m ρ c) (Proc.devRef .tc main_arg15) = _
  after_results

theorem in0 : KVal.In0 (V1 m ρ) c (argsOf m c) where
  X r q := (congrFun (V1_main_v0 m ρ c) (ix2 r q)).trans (cast_pts _ _ r q)
  W1 j q := congrFun (V1_main_arg1 m ρ c) (ix2 j q)
  b1 j := (congrFun (V1_main_v1 m ρ c) (ix2 0 j)).trans (shapeCast_a_1a_apply _ _ 0 j)
  W2 j q := congrFun (V1_main_arg3 m ρ c) (ix2 j q)
  b2 j := (congrFun (V1_main_v2 m ρ c) (ix2 0 j)).trans (shapeCast_a_1a_apply _ _ 0 j)
  W3 j q := congrFun (V1_main_arg5 m ρ c) (ix2 j q)
  b3 j := (congrFun (V1_main_v3 m ρ c) (ix2 0 j)).trans (shapeCast_a_1a_apply _ _ 0 j)
  W4 j q := congrFun (V1_main_arg7 m ρ c) (ix2 j q)
  b4 j := (congrFun (V1_main_v4 m ρ c) (ix2 0 j)).trans (shapeCast_a_1a_apply _ _ 0 j)

/-! ## What the second pallas_call finds -/

theorem V2_h : (V2 m ρ c main_v9_0 : S65536x64.Idx → EReal) = Reg0.hArr (V1 m ρ) c :=
  (W2_arr m ρ c 9).trans (Reg0.final9 (V1 m ρ) c)

theorem V2_g : (V2 m ρ c main_v9_1 : S1x1024.Idx → EReal) = Reg0.gArr (V1 m ρ) c :=
  (W2_arr m ρ c 10).trans (Reg0.final10 (V1 m ρ) c)

theorem in1 : KVal.In1 (V2 m ρ) c (argsOf m c) where
  H r q := (congrFun (V2_h m ρ c) (ix2 r q)).trans (KVal.hArr_apply (in0 m ρ c) r q)
  G j := (congrFun (V2_g m ρ c) (ix2 0 j)).trans (KVal.gArr_apply (in0 m ρ c) j)
  W5 j q := congrFun ((W2_of_ne m ρ c main_arg9 (by decide)).trans (V1_main_arg9 m ρ c)) (ix2 j q)
  b5 j := (congrFun ((W2_of_ne m ρ c main_v5 (by decide)).trans (V1_main_v5 m ρ c)) (ix2 0 j)).trans (shapeCast_a_1a_apply _ _ 0 j)
  W6 j q := congrFun ((W2_of_ne m ρ c main_arg11 (by decide)).trans (V1_main_arg11 m ρ c)) (ix2 j q)
  b6 j := (congrFun ((W2_of_ne m ρ c main_v6 (by decide)).trans (V1_main_v6 m ρ c)) (ix2 0 j)).trans (shapeCast_a_1a_apply _ _ 0 j)
  W7 j q := congrFun ((W2_of_ne m ρ c main_arg13 (by decide)).trans (V1_main_arg13 m ρ c)) (ix2 j q)
  b7 j := (congrFun ((W2_of_ne m ρ c main_v7 (by decide)).trans (V1_main_v7 m ρ c)) (ix2 0 j)).trans (shapeCast_a_1a_apply _ _ 0 j)
  W8 j q := congrFun ((W2_of_ne m ρ c main_arg15 (by decide)).trans (V1_main_arg15 m ρ c)) (ix2 j q)
  b8 j := (congrFun ((W2_of_ne m ρ c main_v8 (by decide)).trans (V1_main_v8 m ρ c)) (ix2 0 j)).trans (shapeCast_a_1a_apply _ _ 0 j)

/-! ## The program's result -/

/-- After the closing reshape the result buffer holds the network's result array. -/
theorem result_eq : (W4 m ρ c (Proc.devRef .tc main_v11) : S1x1x65536x1.Idx → EReal) = Net.result (argsOf m c) := by
  have e : (W4 m ρ c (Proc.devRef .tc main_v11) : S1x1x65536x1.Idx → EReal)
      = shapeCast S1x1x65536x1 (W3 m ρ c (Proc.devRef .tc main_v10)) shapeCasts_S65536x1_S1x1x65536x1 := by
    show StableHlo.after hostOps2 (W3 m ρ c) (Proc.devRef .tc main_v11) = _
    after_results; rfl
  have e3 : (W3 m ρ c (Proc.devRef .tc main_v10) : S65536x1.Idx → EReal) = Reg1.zArr (V2 m ρ) c :=
    (W3_arr m ρ c 10).trans (Reg1.final10 (V2 m ρ) c)
  rw [e, e3]
  funext i
  refine (cast_out _ _ i).trans ?_
  exact KVal.zArr_apply (in1 m ρ c) _

end Cert.KernelIdeal.KHost

end
-- ==== Proof.RefIs.lean ====
/-
  The reference program's value is the network: each of its stages, read at an index, is the corresponding layer of
  the network of Net.lean on the arguments of Args.lean.
-/
import proofs.«148967_j69947837383384_2_alg».proof.Proof.RefRead
import proofs.«148967_j69947837383384_2_alg».proof.Proof.Args

noncomputable section

namespace Cert.RefIs

open Cert.ReferenceIdeal Cert.ReferenceIdeal.Gen Cert.ReferenceIdeal.ReadP Idealize.ShloMosaic Idealize.ShloMosaic.ValueIdx Cert.Net
open scoped BigOperators

/-! ## A layer from its parts -/

/-- A sum of products plus a constant is one channel of an affine layer, once its three parts are the layer's. -/
theorem affine_of_parts {n k : ℕ} (W : Fin n → Fin k → EReal) (b : Fin n → EReal) (x : Fin k → EReal) (j : Fin n)
    (l w : Fin k → EReal) (c : EReal) (hl : ∀ q, l q = x q) (hw : ∀ q, w q = W j q) (hc : c = b j) :
    (∑ q : Fin k, l q * w q) + c = affine W b x j := by
  unfold affine
  rw [hc, funext hl, funext hw]

/-- The same under the rectifier. -/
theorem dense_of_parts {n k : ℕ} (W : Fin n → Fin k → EReal) (b : Fin n → EReal) (x : Fin k → EReal) (j : Fin n)
    (l w : Fin k → EReal) (c : EReal) (hl : ∀ q, l q = x q) (hw : ∀ q, w q = W j q) (hc : c = b j) :
    max ((∑ q : Fin k, l q * w q) + c) 0 = dense W b x j := by
  unfold dense
  rw [affine_of_parts W b x j l w c hl hw hc]

/-! ## The stages, layer by layer -/

variable
  (x0 : (⟨S1x1x65536x3, .f32⟩ : BufTy).Contents (Elt Ideal)) (x1 : (⟨S64x3, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S128x64, .f32⟩ : BufTy).Contents (Elt Ideal))
  (x6 : (⟨S128, .f32⟩ : BufTy).Contents (Elt Ideal)) (x7 : (⟨S1024x128, .f32⟩ : BufTy).Contents (Elt Ideal))
  (x8 : (⟨S1024, .f32⟩ : BufTy).Contents (Elt Ideal)) (x9 : (⟨S512x1088, .f32⟩ : BufTy).Contents (Elt Ideal))
  (x10 : (⟨S512, .f32⟩ : BufTy).Contents (Elt Ideal)) (x11 : (⟨S256x512, .f32⟩ : BufTy).Contents (Elt Ideal))
  (x12 : (⟨S256, .f32⟩ : BufTy).Contents (Elt Ideal)) (x13 : (⟨S128x256, .f32⟩ : BufTy).Contents (Elt Ideal))
  (x14 : (⟨S128, .f32⟩ : BufTy).Contents (Elt Ideal)) (x15 : (⟨S1x128, .f32⟩ : BufTy).Contents (Elt Ideal))
  (x16 : (⟨S1, .f32⟩ : BufTy).Contents (Elt Ideal))

local notation "A" => mkArgs x0 x1 x2 x3 x4 x5 x6 x7 x8 x9 x10 x11 x12 x13 x14 x15 x16

/-- Layer 1: the first rectified stage at (r, j) is the first layer of point r. -/
theorem layer1 (r : Fin 65536) (j : Fin 64) :
    val_main_v6 (F := Ideal) x0 x1 x2 (ix2 r j) = dense (A).W1 (A).b1 ((A).X r) j := by
  rw [val_main_v6_apply, val_main_v5_apply, val_main_v2_apply, val_main_v4_apply, val_main_v3_apply,
    val_main_call0_v0_apply, val_main_call0_cst_apply]
  simp only [val_main_v0_apply, val_main_v1_apply, Ideal.maximumf_def, Ideal.addf_def, Ideal.ofBits_def,
    Ideal.ofBits_zero_f32]
  refine dense_of_parts _ _ _ _ _ _ _ (fun q => ?_) (fun q => ?_) ?_
  · refine congrArg x0 (funext fun a => Fin.ext ?_)
    have hr := r.isLt
    have hq := q.isLt
    match a with
    | ⟨0, _⟩ => rfl
    | ⟨1, _⟩ => rfl
    | ⟨2, _⟩ => show (r.val * 3 + q.val) / 3 % 65536 = r.val; omega
    | ⟨3, _⟩ => show (r.val * 3 + q.val) % 3 = q.val; omega
  · exact congrArg x1 (funext fun a => by match a with | ⟨0, _⟩ => rfl | ⟨1, _⟩ => rfl)
  · exact congrArg x2 (funext fun a => by match a with | ⟨0, _⟩ => rfl)

/-- Layer 2: the second rectified stage at (r, j) is the kept feature j of point r. -/
theorem layer2 (r : Fin 65536) (j : Fin 64) :
    val_main_v12 (F := Ideal) x0 x1 x2 x3 x4 (ix2 r j) = h (A) r j := by
  rw [val_main_v12_apply, val_main_v11_apply, val_main_v8_apply, val_main_v10_apply, val_main_v9_apply,
    val_main_call1_v0_apply, val_main_call1_cst_apply]
  simp only [val_main_v7_apply, Ideal.maximumf_def, Ideal.addf_def, Ideal.ofBits_def, Ideal.ofBits_zero_f32]
  refine dense_of_parts _ _ _ _ _ _ _ (fun q => ?_) (fun q => ?_) ?_
  · refine Eq.trans (congrArg (val_main_v6 (F := Ideal) x0 x1 x2) ?_) (layer1 x0 x1 x2 x3 x4 x5 x6 x7 x8 x9 x10 x11 x12 x13 x14 x15 x16 r q)
    exact funext fun a => by match a with | ⟨0, _⟩ => rfl | ⟨1, _⟩ => rfl
  · exact congrArg x3 (funext fun a => by match a with | ⟨0, _⟩ => rfl | ⟨1, _⟩ => rfl)
  · exact congrArg x4 (funext fun a => by match a with | ⟨0, _⟩ => rfl)

/-- Layer 3 at (r, j). -/
theorem layer3 (r : Fin 65536) (j : Fin 128) :
    val_main_v18 (F := Ideal) x0 x1 x2 x3 x4 x5 x6 (ix2 r j) = dense (A).W3 (A).b3 (h (A) r) j := by
  rw [val_main_v18_apply, val_main_v17_apply, val_main_v14_apply, val_main_v16_apply, val_main_v15_apply,
    val_main_call2_v0_apply, val_main_call2_cst_apply]
  simp only [val_main_v13_apply, Ideal.maximumf_def, Ideal.addf_def, Ideal.ofBits_def, Ideal.ofBits_zero_f32]
  refine dense_of_parts _ _ _ _ _ _ _ (fun q => ?_) (fun q => ?_) ?_
  · refine Eq.trans (congrArg (val_main_v12 (F := Ideal) x0 x1 x2 x3 x4) ?_) (layer2 x0 x1 x2 x3 x4 x5 x6 x7 x8 x9 x10 x11 x12 x13 x14 x15 x16 r q)
    exact funext fun a => by match a with | ⟨0, _⟩ => rfl | ⟨1, _⟩ => rfl
  · exact congrArg x5 (funext fun a => by match a with | ⟨0, _⟩ => rfl | ⟨1, _⟩ => rfl)
  · exact congrArg x6 (funext fun a => by match a with | ⟨0, _⟩ => rfl)

/-- Layer 4 at (r, j): the feature j of point r that is pooled. -/
theorem layer4 (r : Fin 65536) (j : Fin 1024) :
    val_main_v24 (F := Ideal) x0 x1 x2 x3 x4 x5 x6 x7 x8 (ix2 r j) = y4 (A) r j := by
  rw [val_main_v24_apply, val_main_v23_apply, val_main_v20_apply, val_main_v22_apply, val_main_v21_apply,
    val_main_call3_v0_apply, val_main_call3_cst_apply]
  simp only [val_main_v19_apply, Ideal.maximumf_def, Ideal.addf_def, Ideal.ofBits_def, Ideal.ofBits_zero_f32]
  refine dense_of_parts _ _ _ _ _ _ _ (fun q => ?_) (fun q => ?_) ?_
  · refine Eq.trans (congrArg (val_main_v18 (F := Ideal) x0 x1 x2 x3 x4 x5 x6) ?_) (layer3 x0 x1 x2 x3 x4 x5 x6 x7 x8 x9 x10 x11 x12 x13 x14 x15 x16 r q)
    exact funext fun a => by match a with | ⟨0, _⟩ => rfl | ⟨1, _⟩ => rfl
  · exact congrArg x7 (funext fun a => by match a with | ⟨0, _⟩ => rfl | ⟨1, _⟩ => rfl)
  · exact congrArg x8 (funext fun a => by match a with | ⟨0, _⟩ => rfl)

/-! ## The maximum over all points -/

/-- The index over column j whose row coordinate is k. -/
theorem lift_col (hred : S65536x1024.Reduces [0] S1024) (j : Fin 1024) (k : Fin (S65536x1024.size 0)) :
    hred.lift (ix1 j) k = ix2 (⟨k.val, k.isLt⟩ : Fin 65536) j := by
  funext c
  apply Fin.ext
  match c with
  | ⟨0, _⟩ => rfl
  | ⟨1, _⟩ => rfl

/-- The reduce from -∞ with a maximum body over the points' axis is, at channel j, the pooled feature. -/
theorem pooled (j : Fin 1024) :
    val_main_v25 (F := Ideal) x0 x1 x2 x3 x4 x5 x6 x7 x8 (ix1 j) = g (A) j := by
  have hred : S65536x1024.Reduces [0] S1024 := by decide
  unfold val_main_v25
  rw [Host.reduce_eq_fold_single FloatOps.maximumf _ _ reducesTo_S65536x1024_S1024_d0 hred h_S_]
  have hb : val_main_cst (F := Ideal) (Shape.Idx.first h_S_) = (⊥ : EReal) := by
    show Ideal.ofBits .f32 0xFF800000#32 = ⊥
    simp [Ideal.ofBits, Ideal.ieee]
  rw [hb]
  have hf : (val_main_v24 (F := Ideal) x0 x1 x2 x3 x4 x5 x6 x7 x8 ∘ hred.lift (ix1 j))
      = fun k : Fin 65536 => y4 (A) k j := funext fun k => by
    show val_main_v24 (F := Ideal) x0 x1 x2 x3 x4 x5 x6 x7 x8 (hred.lift (ix1 j) k) = _
    rw [lift_col hred j k]
    exact layer4 x0 x1 x2 x3 x4 x5 x6 x7 x8 x9 x10 x11 x12 x13 x14 x15 x16 ⟨k.val, k.isLt⟩ j
  rw [hf]
  exact fold_max_bot_eq_iSup fun k : Fin 65536 => y4 (A) k j

/-- The pooled feature laid out over every point. -/
theorem pooledRow (r : Fin 65536) (j : Fin 1024) :
    val_main_v26 (F := Ideal) x0 x1 x2 x3 x4 x5 x6 x7 x8 (ix2 r j) = g (A) j := by
  rw [val_main_v26_apply]
  refine Eq.trans (congrArg (val_main_v25 (F := Ideal) x0 x1 x2 x3 x4 x5 x6 x7 x8) ?_) (pooled x0 x1 x2 x3 x4 x5 x6 x7 x8 x9 x10 x11 x12 x13 x14 x15 x16 j)
  exact funext fun a => by match a with | ⟨0, _⟩ => rfl

/-! ## The joined features -/

/-- The concatenation at (r, q): point r's kept features followed by the pooled ones. -/
theorem joined (r : Fin 65536) (q : Fin 1088) :
    val_main_v27 (F := Ideal) x0 x1 x2 x3 x4 x5 x6 x7 x8 (ix2 r q) = cat (h (A) r) (g (A)) q := by
  unfold val_main_v27 cat
  by_cases hq : q.val < 64
  · rw [dif_pos hq]
    refine Eq.trans (concatenate_pair_apply_left 1 _ _ concatenates_S65536x64_S65536x1024_S65536x1088_d1 (ix2 r q) rfl
      (ix2 r (⟨q.val, hq⟩ : Fin 64)) (fun b => by match b with | ⟨0, _⟩ => rfl | ⟨1, _⟩ => rfl)) ?_
    exact layer2 x0 x1 x2 x3 x4 x5 x6 x7 x8 x9 x10 x11 x12 x13 x14 x15 x16 r ⟨q.val, hq⟩
  · rw [dif_neg hq]
    have hq' : q.val - 64 < 1024 := by have := q.isLt; omega
    refine Eq.trans (concatenate_pair_apply_right 1 _ _ concatenates_S65536x64_S65536x1024_S65536x1088_d1 (ix2 r q) rfl rfl
      (ix2 r (⟨q.val - 64, hq'⟩ : Fin 1024))
      (fun b hb => by
        match b with
        | ⟨0, _⟩ => rfl
        | ⟨1, _⟩ => exact absurd rfl hb)
      (by show q.val - 64 + 64 = q.val; omega)) ?_
    exact pooledRow x0 x1 x2 x3 x4 x5 x6 x7 x8 x9 x10 x11 x12 x13 x14 x15 x16 r ⟨q.val - 64, hq'⟩

/-! ## The last four layers -/

/-- Layer 5 at (r, j). -/
theorem layer5 (r : Fin 65536) (j : Fin 512) :
    val_main_v33 (F := Ideal) x0 x1 x2 x3 x4 x5 x6 x7 x8 x9 x10 (ix2 r j)
      = dense (A).W5 (A).b5 (cat (h (A) r) (g (A))) j := by
  rw [val_main_v33_apply, val_main_v32_apply, val_main_v29_apply, val_main_v31_apply, val_main_v30_apply,
    val_main_call4_v0_apply, val_main_call4_cst_apply]
  simp only [val_main_v28_apply, Ideal.maximumf_def, Ideal.addf_def, Ideal.ofBits_def, Ideal.ofBits_zero_f32]
  refine dense_of_parts _ _ _ _ _ _ _ (fun q => ?_) (fun q => ?_) ?_
  · refine Eq.trans (congrArg (val_main_v27 (F := Ideal) x0 x1 x2 x3 x4 x5 x6 x7 x8) ?_) (joined x0 x1 x2 x3 x4 x5 x6 x7 x8 x9 x10 x11 x12 x13 x14 x15 x16 r q)
    exact funext fun a => by match a with | ⟨0, _⟩ => rfl | ⟨1, _⟩ => rfl
  · exact congrArg x9 (funext fun a => by match a with | ⟨0, _⟩ => rfl | ⟨1, _⟩ => rfl)
  · exact congrArg x10 (funext fun a => by match a with | ⟨0, _⟩ => rfl)

/-- Layer 6 at (r, j). -/
theorem layer6 (r : Fin 65536) (j : Fin 256) :
    val_main_v39 (F := Ideal) x0 x1 x2 x3 x4 x5 x6 x7 x8 x9 x10 x11 x12 (ix2 r j)
      = dense (A).W6 (A).b6 (dense (A).W5 (A).b5 (cat (h (A) r) (g (A)))) j := by
  rw [val_main_v39_apply, val_main_v38_apply, val_main_v35_apply, val_main_v37_apply, val_main_v36_apply,
    val_main_call5_v0_apply, val_main_call5_cst_apply]
  simp only [val_main_v34_apply, Ideal.maximumf_def, Ideal.addf_def, Ideal.ofBits_def, Ideal.ofBits_zero_f32]
  refine dense_of_parts _ _ _ _ _ _ _ (fun q => ?_) (fun q => ?_) ?_
  · refine Eq.trans (congrArg (val_main_v33 (F := Ideal) x0 x1 x2 x3 x4 x5 x6 x7 x8 x9 x10) ?_) (layer5 x0 x1 x2 x3 x4 x5 x6 x7 x8 x9 x10 x11 x12 x13 x14 x15 x16 r q)
    exact funext fun a => by match a with | ⟨0, _⟩ => rfl | ⟨1, _⟩ => rfl
  · exact congrArg x11 (funext fun a => by match a with | ⟨0, _⟩ => rfl | ⟨1, _⟩ => rfl)
  · exact congrArg x12 (funext fun a => by match a with | ⟨0, _⟩ => rfl)

/-- Layer 7 at (r, j). -/
theorem layer7 (r : Fin 65536) (j : Fin 128) :
    val_main_v45 (F := Ideal) x0 x1 x2 x3 x4 x5 x6 x7 x8 x9 x10 x11 x12 x13 x14 (ix2 r j)
      = dense (A).W7 (A).b7 (dense (A).W6 (A).b6 (dense (A).W5 (A).b5 (cat (h (A) r) (g (A))))) j := by
  rw [val_main_v45_apply, val_main_v44_apply, val_main_v41_apply, val_main_v43_apply, val_main_v42_apply,
    val_main_call6_v0_apply, val_main_call6_cst_apply]
  simp only [val_main_v40_apply, Ideal.maximumf_def, Ideal.addf_def, Ideal.ofBits_def, Ideal.ofBits_zero_f32]
  refine dense_of_parts _ _ _ _ _ _ _ (fun q => ?_) (fun q => ?_) ?_
  · refine Eq.trans (congrArg (val_main_v39 (F := Ideal) x0 x1 x2 x3 x4 x5 x6 x7 x8 x9 x10 x11 x12) ?_) (layer6 x0 x1 x2 x3 x4 x5 x6 x7 x8 x9 x10 x11 x12 x13 x14 x15 x16 r q)
    exact funext fun a => by match a with | ⟨0, _⟩ => rfl | ⟨1, _⟩ => rfl
  · exact congrArg x13 (funext fun a => by match a with | ⟨0, _⟩ => rfl | ⟨1, _⟩ => rfl)
  · exact congrArg x14 (funext fun a => by match a with | ⟨0, _⟩ => rfl)

/-- Layer 8, not rectified, at (r, 0): the network's value at point r. -/
theorem layer8 (r : Fin 65536) :
    val_main_v50 (F := Ideal) x0 x1 x2 x3 x4 x5 x6 x7 x8 x9 x10 x11 x12 x13 x14 x15 x16 (ix2 r (0 : Fin 1)) = out (A) r := by
  rw [val_main_v50_apply, val_main_v47_apply, val_main_v49_apply, val_main_v48_apply]
  simp only [val_main_v46_apply, Ideal.addf_def]
  refine affine_of_parts _ _ _ _ _ _ _ (fun q => ?_) (fun q => ?_) ?_
  · refine Eq.trans (congrArg (val_main_v45 (F := Ideal) x0 x1 x2 x3 x4 x5 x6 x7 x8 x9 x10 x11 x12 x13 x14) ?_) (layer7 x0 x1 x2 x3 x4 x5 x6 x7 x8 x9 x10 x11 x12 x13 x14 x15 x16 r q)
    exact funext fun a => by match a with | ⟨0, _⟩ => rfl | ⟨1, _⟩ => rfl
  · exact congrArg x15 (funext fun a => by match a with | ⟨0, _⟩ => rfl | ⟨1, _⟩ => rfl)
  · exact congrArg x16 (funext fun a => by match a with | ⟨0, _⟩ => rfl)

/-! ## The reference's value -/

/-- The reference program's result is the network's result array. -/
theorem ref_is :
    val_main_v51 (F := Ideal) x0 x1 x2 x3 x4 x5 x6 x7 x8 x9 x10 x11 x12 x13 x14 x15 x16 = result (A) := by
  funext i
  rw [val_main_v51_apply]
  have hi : idx_main_v51 i = ix2 (⟨(i 2).val, (i 2).isLt⟩ : Fin 65536) (0 : Fin 1) := funext fun a => Fin.ext (by
    have h0 : (i 0).val < 1 := (i 0).isLt
    have h1 : (i 1).val < 1 := (i 1).isLt
    have h2 : (i 2).val < 65536 := (i 2).isLt
    have h3 : (i 3).val < 1 := (i 3).isLt
    match a with
    | ⟨0, _⟩ => show ((((i 0).val * 1 + (i 1).val) * 65536 + (i 2).val) * 1 + (i 3).val) / 1 = (i 2).val; omega
    | ⟨1, _⟩ => rfl)
  rw [hi]
  exact layer8 x0 x1 x2 x3 x4 x5 x6 x7 x8 x9 x10 x11 x12 x13 x14 x15 x16 ⟨(i 2).val, (i 2).isLt⟩

end Cert.RefIs

end
-- ==== Proof.lean ====
/-
  The certificate of the two-pass point network: a Pallas kernel pair against its jnp reference, equal over the
  extended reals.

  The mathematics. Every one of the 65536 points goes through eight affine layers x ↦ x·Wᵀ + b with the rectifier
  max(·, 0) after the first seven; between layers 4 and 5 the 1024 features of layer 4 are replaced, for every point,
  by their maximum over ALL points, appended to the point's own 64 features of layer 2 (Proof/Net.lean states this once,
  over plain functions). The reference computes it array by array. The kernel computes it in two passes over blocks of
  512 points: pass 1 stores each block's layer-2 features and keeps a running maximum of the layer-4 features, started
  at -∞ at the first block; pass 2 reads both back and applies layers 5 to 8, the last one as a product with the one
  row of W8 summed along the row. Over the extended reals a change of float format is the identity, so the only
  differences are the tiling and the order in which the maximum is taken: a running maximum over consecutive groups
  started from -∞ and one maximum over everything are the same supremum. No law is used that fails at an infinity:
  the sums are the same sums term by term, so the inputs' finiteness is never opened.

  The modules. Net: the network and the supremum facts. Args: the arrays as its arguments. Payload: the two kernel
  bodies' pure terms read at an index as layers. Pieces0, Region0, Region0Arr, Region1, Blocks: what the points of the
  two pallas_calls leave in their output buffers and arrays, block by block. KValue: those arrays as the network's
  values. KHost: the reshapes around the calls, and the program's result. KRun: the kernel's run with its result
  named. RefRun, RefRead: the reference's run and its operations read at an index; RefIs: the reference's value is the
  network's. Here: the five claims.
-/
import proofs.«148967_j69947837383384_2_alg».proof.Defs
import proofs.«148967_j69947837383384_2_alg».proof.Proof.Gen.Kernel
import proofs.«148967_j69947837383384_2_alg».proof.Proof.Gen.Kernel.Frame
import proofs.«148967_j69947837383384_2_alg».proof.Proof.Gen.KernelIdeal
import proofs.«148967_j69947837383384_2_alg».proof.Proof.Gen.KernelIdeal.Frame
import proofs.«148967_j69947837383384_2_alg».proof.Proof.Gen.ReferenceIdeal
import proofs.«148967_j69947837383384_2_alg».proof.Proof.Gen.Pre_finite_inputs
import proofs.«148967_j69947837383384_2_alg».proof.Proof.KRun
import proofs.«148967_j69947837383384_2_alg».proof.Proof.KHost
import proofs.«148967_j69947837383384_2_alg».proof.Proof.RefRead
import proofs.«148967_j69947837383384_2_alg».proof.Proof.RefIs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.Gen.frame m ρ

/-- So does its idealization. -/
theorem frame_ki : Cert.frame_KernelIdeal :=
  fun m ρ _ => Cert.KernelIdeal.Gen.frame m ρ

/-- The reference is a host program: its run, with the result dropped. -/
theorem frame_ri : Cert.frame_ReferenceIdeal :=
  fun m ρ _ => (θ_run Cert.ReferenceIdeal.defs _ _).mono (fun _ h c => (h c).2)
    (Cert.ReferenceIdeal.ValueP.run (F := Ideal) m ρ)

/-- The idealization rewrote nothing. -/
theorem preserves : Cert.preserves_Kernel_KernelIdeal := trivial

/-- Both idealized programs end with the network's result array of their (equal) arguments. -/
theorem algebraic : Cert.algebraic_KernelIdeal_ReferenceIdeal := by
  intro m ρ m' ρ' _ hagree
  refine ⟨fun c => Cert.Net.result (Cert.KernelIdeal.KHost.argsOf m c), ?_, ?_⟩
  · exact (θ_run Cert.KernelIdeal.defs _ _).mono
      (fun _ h c => ⟨(h c).1.trans (Cert.KernelIdeal.KHost.result_eq m ρ c), (h c).2⟩)
      (Cert.KernelIdeal.RunV.run_result m ρ)
  · refine (θ_run Cert.ReferenceIdeal.defs _ _).mono (fun _ h c => ⟨(h c).1.trans ?_, (h c).2⟩)
      (Cert.ReferenceIdeal.ValueP.run (F := Ideal) m' ρ')
    show _ = Cert.Net.result (Cert.KernelIdeal.KHost.argsOf m c)
    rw [Cert.ReferenceIdeal.ReadP.val_main_v51_eq, Cert.RefIs.ref_is]
    obtain ⟨a0, a1, a2, a3, a4, a5, a6, a7, a8, a9, a10, a11, a12, a13, a14, a15, a16⟩ := hagree c
    unfold Cert.KernelIdeal.KHost.argsOf
    rw [a0, a1, a2, a3, a4, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
